-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_cst_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_cst_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_cst_12) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x24 : Shape := ⟨2, ![2097152, 24]⟩
abbrev S2097152x8x3 : Shape := ⟨3, ![2097152, 8, 3]⟩
abbrev S2097152x3x3 : Shape := ⟨3, ![2097152, 3, 3]⟩
abbrev S_ : Shape := ⟨0, ![]⟩

class Facts : Prop where
  bcast_S_S2097152x24 : S_.BroadcastsInDim S2097152x24 (![] : Fin 0 → Fin S2097152x24.rank)
  reducesTo_S2097152x24_S_d0_1 : S2097152x24.ReducesTo [0, 1] S_
  h_S_ : 0 < S_.numel
  bcast_S_S2097152x8x3 : S_.BroadcastsInDim S2097152x8x3 (![] : Fin 0 → Fin S2097152x8x3.rank)
  reducesTo_S2097152x8x3_S_d0_1_2 : S2097152x8x3.ReducesTo [0, 1, 2] S_
  bcast_S_S2097152x3x3 : S_.BroadcastsInDim S2097152x3x3 (![] : Fin 0 → Fin S2097152x3x3.rank)
  reducesTo_S2097152x3x3_S_d0_1_2 : S2097152x3x3.ReducesTo [0, 1, 2] S_

variable [Facts]

def fn_part1 {F : FTy → Type} [FloatOps F] (main_v13 : IVec S_ 1) (main_v16 : IVec S2097152x3x3 1) : IVec S_ 1 :=
  let main_c_5 : IVec S_ 1 := constantI S_ 1 1#1
  let main_v17 : IVec S_ 1 := (fun x v => Host.reduce IntOp.andi x v reducesTo_S2097152x3x3_S_d0_1_2 h_S_) main_v16 main_c_5
  let main_v18 : IVec S_ 1 := andi main_v13 main_v17
  main_v18

def fn {F : FTy → Type} [FloatOps F] (main_arg0 : FVec F S2097152x24 .f32) (main_arg1 : FVec F S2097152x24 .f32) (main_arg2 : FVec F S2097152x8x3 .f32) (main_arg3 : FVec F S2097152x3x3 .f32) : IVec S_ 1 :=
  let main_v0 : FVec F S2097152x24 .f32 := Host.absf main_arg0
  let main_cst : FVec F S_ .f32 := constant S_ .f32 0x7F800000#32
  let main_v1 : FVec F S2097152x24 .f32 := broadcastInDim S2097152x24 ![] bcast_S_S2097152x24 main_cst
  let main_v2 : IVec S2097152x24 1 := cmpf .olt main_v0 main_v1
  let main_c : IVec S_ 1 := constantI S_ 1 1#1
  let main_v3 : IVec S_ 1 := (fun x v => Host.reduce IntOp.andi x v reducesTo_S2097152x24_S_d0_1 h_S_) main_v2 main_c
  let main_v4 : FVec F S2097152x24 .f32 := Host.absf main_arg1
  let main_cst_0 : FVec F S_ .f32 := constant S_ .f32 0x7F800000#32
  let main_v5 : FVec F S2097152x24 .f32 := broadcastInDim S2097152x24 ![] bcast_S_S2097152x24 main_cst_0
  let main_v6 : IVec S2097152x24 1 := cmpf .olt main_v4 main_v5
  let main_c_1 : IVec S_ 1 := constantI S_ 1 1#1
  let main_v7 : IVec S_ 1 := (fun x v => Host.reduce IntOp.andi x v reducesTo_S2097152x24_S_d0_1 h_S_) main_v6 main_c_1
  let main_v8 : IVec S_ 1 := andi main_v3 main_v7
  let main_v9 : FVec F S2097152x8x3 .f32 := Host.absf main_arg2
  let main_cst_2 : FVec F S_ .f32 := constant S_ .f32 0x7F800000#32
  let main_v10 : FVec F S2097152x8x3 .f32 := broadcastInDim S2097152x8x3 ![] bcast_S_S2097152x8x3 main_cst_2
  let main_v11 : IVec S2097152x8x3 1 := cmpf .olt main_v9 main_v10
  let main_c_3 : IVec S_ 1 := constantI S_ 1 1#1
  let main_v12 : IVec S_ 1 := (fun x v => Host.reduce IntOp.andi x v reducesTo_S2097152x8x3_S_d0_1_2 h_S_) main_v11 main_c_3
  let main_v13 : IVec S_ 1 := andi main_v8 main_v12
  let main_v14 : FVec F S2097152x3x3 .f32 := Host.absf main_arg3
  let main_cst_4 : FVec F S_ .f32 := constant S_ .f32 0x7F800000#32
  let main_v15 : FVec F S2097152x3x3 .f32 := broadcastInDim S2097152x3x3 ![] bcast_S_S2097152x3x3 main_cst_4
  let main_v16 : IVec S2097152x3x3 1 := cmpf .olt main_v14 main_v15
  fn_part1 (F := F) main_v13 main_v16
-- ==== Kernel.lean ====
abbrev S2097152x24 : Shape := ⟨2, ![2097152, 24]⟩
abbrev S2097152x8x3 : Shape := ⟨3, ![2097152, 8, 3]⟩
abbrev S2097152x3x3 : Shape := ⟨3, ![2097152, 3, 3]⟩
abbrev S1x1 : Shape := ⟨2, ![1, 1]⟩
abbrev S512x8x3 : Shape := ⟨3, ![512, 8, 3]⟩
abbrev S512x3x3 : Shape := ⟨3, ![512, 3, 3]⟩
abbrev S512x8 : Shape := ⟨2, ![512, 8]⟩
abbrev S512 : Shape := ⟨1, ![512]⟩
abbrev S512x1 : Shape := ⟨2, ![512, 1]⟩
abbrev S1 : Shape := ⟨1, ![1]⟩
abbrev S512x8x1 : Shape := ⟨3, ![512, 8, 1]⟩
abbrev S512x1x3 : Shape := ⟨3, ![512, 1, 3]⟩
abbrev S512x3 : Shape := ⟨2, ![512, 3]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S2097152x24, .f32⟩
  | .hbm, ⟨1, _⟩ => ⟨S2097152x24, .f32⟩
  | .hbm, ⟨2, _⟩ => ⟨S2097152x8x3, .f32⟩
  | .hbm, ⟨3, _⟩ => ⟨S2097152x3x3, .f32⟩
  | .hbm, ⟨4, _⟩ => ⟨S2097152x8x3, .f32⟩
  | .hbm, ⟨5, _⟩ => ⟨S2097152x8x3, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S512x8x3, .f32⟩
  | .local _ .vmem, ⟨1, _⟩ => ⟨S512x8x3, .f32⟩
  | .local _ .vmem, ⟨2, _⟩ => ⟨S512x8x3, .f32⟩
  | .local _ .vmem, ⟨3, _⟩ => ⟨S512x8x3, .f32⟩
  | .local _ .vmem, ⟨4, _⟩ => ⟨S512x8x3, .f32⟩
  | .local _ .vmem, ⟨5, _⟩ => ⟨S512x8x3, .f32⟩
  | .local _ .vmem, ⟨6, _⟩ => ⟨S512x3x3, .f32⟩
  | .local _ .vmem, ⟨7, _⟩ => ⟨S512x3x3, .f32⟩
  | .local _ .vmem, ⟨8, _⟩ => ⟨S1x1, .f32⟩
  | .local _ .vmem, ⟨9, _⟩ => ⟨S1x1, .f32⟩
  | _, _ => ⟨S2097152x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_cst_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4096], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S2097152x24_S2097152x8x3 : S2097152x24.ShapeCasts S2097152x8x3
  inb_S1x1_S1x1_0_0 : ∀ a, (![0, 0] : Fin 2 → Nat) a + S1x1.size a ≤ S1x1.size a
  h_S1x1 : 0 < S1x1.numel
  inb_S512x8x3_S512x8x3_0_0_0 : ∀ a, (![0, 0, 0] : Fin 3 → Nat) a + S512x8x3.size a ≤ S512x8x3.size a
  h_S512x8x3 : 0 < S512x8x3.numel
  shapeCasts_S512x8x3_S512x8x3 : S512x8x3.ShapeCasts S512x8x3
  inb_S512x3x3_S512x3x3_0_0_0 : ∀ a, (![0, 0, 0] : Fin 3 → Nat) a + S512x3x3.size a ≤ S512x3x3.size a
  h_S512x3x3 : 0 < S512x3x3.numel
  reduces_S512x8x3_S512x8 : S512x8x3.Reduces [2] S512x8
  reduces_S512x8_S512 : S512x8.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  natLt_1_32 : 1 < 32
  slices_S512x8x3_o0_0_0_S512x8x1 : S512x8x3.Slices ![0, 0, 0] S512x8x1
  shapeCasts_S512x8x1_S512x8 : S512x8x1.ShapeCasts S512x8
  shapeCasts_S512x8_S512x8x1 : S512x8.ShapeCasts S512x8x1
  slices_S512x3x3_o0_0_0_S512x1x3 : S512x3x3.Slices ![0, 0, 0] S512x1x3
  shapeCasts_S512x1x3_S512x3 : S512x1x3.ShapeCasts S512x3
  shapeCasts_S512x3_S512x1x3 : S512x3.ShapeCasts S512x1x3
  broadcasts_S512x8x1_S512x8x3 : S512x8x1.Broadcasts S512x8x3
  broadcasts_S512x1x3_S512x8x3 : S512x1x3.Broadcasts S512x8x3
  slices_S512x8x3_o0_0_1_S512x8x1 : S512x8x3.Slices ![0, 0, 1] S512x8x1
  slices_S512x3x3_o0_1_0_S512x1x3 : S512x3x3.Slices ![0, 1, 0] S512x1x3
  slices_S512x8x3_o0_0_2_S512x8x1 : S512x8x3.Slices ![0, 0, 2] S512x8x1
  slices_S512x3x3_o0_2_0_S512x1x3 : S512x3x3.Slices ![0, 2, 0] S512x1x3
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x3.size a ≤ S2097152x8x3.size a
  hwx0_0 : ∀ i : grid0.Coords, EltTy.bits .f32 = 32 ∨ (Rect.block (s := S2097152x8x3) S512x8x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x3.size a ≤ S2097152x8x3.size a
  hwx0_1 : ∀ i : grid0.Coords, EltTy.bits .f32 = 32 ∨ (Rect.block (s := S2097152x8x3) S512x8x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x3.size a ≤ S2097152x8x3.size a
  hwx0_2 : ∀ i : grid0.Coords, EltTy.bits .f32 = 32 ∨ (Rect.block (s := S2097152x8x3) S512x8x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3x3.size a ≤ S2097152x3x3.size a
  hwx0_3 : ∀ i : grid0.Coords, EltTy.bits .f32 = 32 ∨ (Rect.block (s := S2097152x3x3) S512x3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v0) S512x8x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x8x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x8x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x3x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x24 : Shape := ⟨2, ![2097152, 24]⟩
abbrev S2097152x8x3 : Shape := ⟨3, ![2097152, 8, 3]⟩
abbrev S2097152x3x3 : Shape := ⟨3, ![2097152, 3, 3]⟩
abbrev S_ : Shape := ⟨0, ![]⟩
abbrev S2097152x8 : Shape := ⟨2, ![2097152, 8]⟩

abbrev nBuf : Space → Nat
  | .hbm => 57
  | .vmem => 0
  | .smem => 0
  | _ => 0

abbrev bufTy : (tb : Table) → Fin (tcTables nBuf tb) → BufTy
  | .hbm, ⟨0, _⟩ => ⟨S2097152x24, .f32⟩
  | .hbm, ⟨1, _⟩ => ⟨S2097152x24, .f32⟩
  | .hbm, ⟨2, _⟩ => ⟨S2097152x8x3, .f32⟩
  | .hbm, ⟨3, _⟩ => ⟨S2097152x3x3, .f32⟩
  | .hbm, ⟨4, _⟩ => ⟨S_, .f32⟩
  | .hbm, ⟨5, _⟩ => ⟨S2097152x24, .f32⟩
  | .hbm, ⟨6, _⟩ => ⟨S2097152x24, .f32⟩
  | .hbm, ⟨7, _⟩ => ⟨S2097152x24, .f32⟩
  | .hbm, ⟨8, _⟩ => ⟨S2097152x24, .f32⟩
  | .hbm, ⟨9, _⟩ => ⟨S2097152x24, .i1⟩
  | .hbm, ⟨10, _⟩ => ⟨S2097152x24, .f32⟩
  | .hbm, ⟨11, _⟩ => ⟨S2097152x24, .f32⟩
  | .hbm, ⟨12, _⟩ => ⟨S2097152x24, .f32⟩
  | .hbm, ⟨13, _⟩ => ⟨S2097152x24, .f32⟩
  | .hbm, ⟨14, _⟩ => ⟨S2097152x24, .f32⟩
  | .hbm, ⟨15, _⟩ => ⟨S2097152x24, .f32⟩
  | .hbm, ⟨16, _⟩ => ⟨S2097152x24, .f32⟩
  | .hbm, ⟨17, _⟩ => ⟨S2097152x24, .f32⟩
  | .hbm, ⟨18, _⟩ => ⟨S2097152x24, .f32⟩
  | .hbm, ⟨19, _⟩ => ⟨S2097152x24, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2097152x8x3, .f32⟩
  | .hbm, ⟨25, _⟩ => ⟨S_, .f32⟩
  | .hbm, ⟨26, _⟩ => ⟨S2097152x8x3, .f32⟩
  | .hbm, ⟨27, _⟩ => ⟨S2097152x8x3, .i1⟩
  | .hbm, ⟨28, _⟩ => ⟨S2097152x8x3, .f32⟩
  | .hbm, ⟨29, _⟩ => ⟨S2097152x8x3, .f32⟩
  | .hbm, ⟨30, _⟩ => ⟨S2097152x8x3, .f32⟩
  | .hbm, ⟨31, _⟩ => ⟨S_, .f32⟩
  | .hbm, ⟨32, _⟩ => ⟨S2097152x8x3, .f32⟩
  | .hbm, ⟨33, _⟩ => ⟨S2097152x8x3, .f32⟩
  | .hbm, ⟨34, _⟩ => ⟨S_, .f32⟩
  | .hbm, ⟨35, _⟩ => ⟨S2097152x8, .f32⟩
  | .hbm, ⟨36, _⟩ => ⟨S_, .f32⟩
  | .hbm, ⟨37, _⟩ => ⟨S2097152x8, .f32⟩
  | .hbm, ⟨38, _⟩ => ⟨S_, .f32⟩
  | .hbm, ⟨39, _⟩ => ⟨S2097152x8, .f32⟩
  | .hbm, ⟨40, _⟩ => ⟨S2097152x8, .i1⟩
  | .hbm, ⟨41, _⟩ => ⟨S_, .f32⟩
  | .hbm, ⟨42, _⟩ => ⟨S_, .f32⟩
  | .hbm, ⟨43, _⟩ => ⟨S2097152x8, .f32⟩
  | .hbm, ⟨44, _⟩ => ⟨S2097152x8, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S2097152x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_cst_5 : Ref sig .tc := ⟨.hbm, 38, rfl⟩
abbrev main_v15 : Ref sig .tc := ⟨.hbm, 39, rfl⟩
abbrev main_v16 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v17 : Ref sig .tc := ⟨.hbm, 44, rfl⟩
abbrev main_cst_7 : Ref sig .tc := ⟨.hbm, 45, rfl⟩
abbrev main_v18 : Ref sig .tc := ⟨.hbm, 46, rfl⟩
abbrev main_cst_8 : Ref sig .tc := ⟨.hbm, 47, rfl⟩
abbrev main_v19 : Ref sig .tc := ⟨.hbm, 48, rfl⟩
abbrev main_cst_9 : Ref sig .tc := ⟨.hbm, 49, rfl⟩
abbrev main_v20 : Ref sig .tc := ⟨.hbm, 50, rfl⟩
abbrev main_v21 : Ref sig .tc := ⟨.hbm, 51, rfl⟩
abbrev main_cst_10 : Ref sig .tc := ⟨.hbm, 52, rfl⟩
abbrev main_cst_11 : Ref sig .tc := ⟨.hbm, 53, rfl⟩
abbrev main_v22 : Ref sig .tc := ⟨.hbm, 54, rfl⟩
abbrev main_v23 : Ref sig .tc := ⟨.hbm, 55, rfl⟩
abbrev main_cst_12 : Ref sig .tc := ⟨.hbm, 56, rfl⟩

abbrev nD : Nat := 1
abbrev τ : Topo := Topo.v7x

variable {F : FTy → Type} [FloatOps F]

class Facts₀ : Prop where
  bcast_S_S2097152x24 : S_.BroadcastsInDim S2097152x24 (![] : Fin 0 → Fin S2097152x24.rank)
  reducesTo_S2097152x24_S_d0_1 : S2097152x24.ReducesTo [0, 1] S_
  h_S_ : 0 < S_.numel
  shapeCasts_S2097152x24_S2097152x8x3 : S2097152x24.ShapeCasts S2097152x8x3
  bcast_S_S2097152x8x3 : S_.BroadcastsInDim S2097152x8x3 (![] : Fin 0 → Fin S2097152x8x3.rank)
  reducesTo_S2097152x8x3_S2097152x8_d2 : S2097152x8x3.ReducesTo [2] S2097152x8
  bcast_S_S2097152x8 : S_.BroadcastsInDim S2097152x8 (![] : Fin 0 → Fin S2097152x8.rank)
  reducesTo_S2097152x8_S_d0_1 : S2097152x8.ReducesTo [0, 1] S_
  dot_S2097152x8x3_S2097152x3x3_S2097152x8x3_2_1_1_2_0_0_wf : DotDims.WF S2097152x8x3 S2097152x3x3 S2097152x8x3 [2] [1] [1] [2] [0] [0]

variable [Facts₀]

def dot_S2097152x8x3_S2097152x3x3_S2097152x8x3_2_1_1_2_0_0 : DotDims S2097152x8x3 S2097152x3x3 S2097152x8x3 where
  lhsContracting := [2]
  rhsContracting := [1]
  lhsNonContracting := [1]
  rhsNonContracting := [2]
  lhsBatch := [0]
  rhsBatch := [0]
  wf := dot_S2097152x8x3_S2097152x3x3_S2097152x8x3_2_1_1_2_0_0_wf

class Facts : Prop extends Facts₀ where

variable [Facts]
-- ==== Proof.KernelPieces.lean ====
/-
  What one run of the kernel's body leaves in its two accumulator blocks, as values.

  The body keeps two 1x1 accumulators.  At the first grid point it stores zero in each, reads it back and stores the
  accumulator plus the point's block sum; at every later point it reads what the point before left and stores
  that plus the block sum.  Each accumulator's last store covers its whole 1x1 block, so what the block holds after
  the body is that store's value: the first sum's store computes from the two loaded blocks and the loaded
  accumulator, the second sum's store adds the loaded accumulator to the block's capability sum.
-/
import proofs.«134858_j76716705841545_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point, first accumulator: the store's value over the loaded blocks and the accumulator found. -/
theorem outB4 (c : Dev nD) (i : grid0.Coords) (arg1 : Memref sig .tc .vmem S512x8x3 .f32) (harg1 : arg1.IsWhole) (arg2 : Memref sig .tc .vmem S512x8x3 .f32) (harg2 : arg2.IsWhole) (arg3 : Memref sig .tc .vmem S512x8x3 .f32) (harg3 : arg3.IsWhole) (arg4 : Memref sig .tc .vmem S512x3x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S512x8x3 .f32) (x1 : Vec F S512x8x3 .f32) (x2 : Vec F S512x8x3 .f32) (x3 : Vec F S512x3x3 .f32) (xo4 xo5 : Vec F S1x1 .f32) :
    out0_B_4 c i arg1 harg1 arg2 harg2 arg3 harg3 arg4 harg4 arg5 harg5 arg6 harg6 hc0 x0 x1 x2 x3 xo4 xo5 = k0_pay5 x0 x1 xo4 := by
  unfold out0_B_4
  rw [View.read_writes_eq_canon _ _ _ (cover0_B_4 c i arg1 harg1 arg2 harg2 arg3 harg3 arg4 harg4 arg5 harg5 arg6 harg6 hc0 x0 x1 x2 x3 xo4 xo5)]
  unfold kernelRun0_B
  dsimp only
  rw [View.canon_unit_zero hz2]
  simp only [View.readAt_eq_ld, harg1.read_unread, harg2.read_unread, harg5.read_unread,
    View.ld_unit_zero (S := S512x8x3) hz3, View.ld_unit_zero (S := S1x1) hz2]

/-- A later point, second accumulator: the accumulator found plus the block's capability sum. -/
theorem outB5 (c : Dev nD) (i : grid0.Coords) (arg1 : Memref sig .tc .vmem S512x8x3 .f32) (harg1 : arg1.IsWhole) (arg2 : Memref sig .tc .vmem S512x8x3 .f32) (harg2 : arg2.IsWhole) (arg3 : Memref sig .tc .vmem S512x8x3 .f32) (harg3 : arg3.IsWhole) (arg4 : Memref sig .tc .vmem S512x3x3 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (x0 : Vec F S512x8x3 .f32) (x1 : Vec F S512x8x3 .f32) (x2 : Vec F S512x8x3 .f32) (x3 : Vec F S512x3x3 .f32) (xo4 xo5 : Vec F S1x1 .f32) :
    out0_B_5 c i arg1 harg1 arg2 harg2 arg3 harg3 arg4 harg4 arg5 harg5 arg6 harg6 hc0 x0 x1 x2 x3 xo4 xo5 = k0_pay1 (k0_pay6 (k0_pay4 x0) x2 x3) xo5 := by
  unfold out0_B_5
  rw [View.read_writes_eq_canon _ _ _ (cover0_B_5 c i arg1 harg1 arg2 harg2 arg3 harg3 arg4 harg4 arg5 harg5 arg6 harg6 hc0 x0 x1 x2 x3 xo4 xo5)]
  unfold kernelRun0_B
  dsimp only
  sl_unfold_words
  rw [View.canon_unit_zero hz2]
  simp only [View.readAt_eq_ld, harg1.read_unread, harg3.read_unread, harg4.read_unread, harg6.read_unread,
    View.ld_unit_zero (S := S512x8x3) hz3, View.ld_unit_zero (S := S512x3x3) hz3, View.ld_unit_zero (S := S1x1) hz2]

/-- The first point, first accumulator: as a later point's, over the zero block just stored. -/
theorem outA4 (c : Dev nD) (i : grid0.Coords) (arg1 : Memref sig .tc .vmem S512x8x3 .f32) (harg1 : arg1.IsWhole) (arg2 : Memref sig .tc .vmem S512x8x3 .f32) (harg2 : arg2.IsWhole) (arg3 : Memref sig .tc .vmem S512x8x3 .f32) (harg3 : arg3.IsWhole) (arg4 : Memref sig .tc .vmem S512x3x3 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S512x8x3 .f32) (x1 : Vec F S512x8x3 .f32) (x2 : Vec F S512x8x3 .f32) (x3 : Vec F S512x3x3 .f32) :
    out0_A_4 c i arg1 harg1 arg2 harg2 arg3 harg3 arg4 harg4 arg5 harg5 arg6 harg6 hc0 x0 x1 x2 x3 = k0_pay5 x0 x1 k0_pay2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg2.read_unread,
    View.ld_unit_zero (S := S512x8x3) hz3]

/-- The first point, second accumulator: the zero block just stored plus the block's capability sum. -/
theorem outA5 (c : Dev nD) (i : grid0.Coords) (arg1 : Memref sig .tc .vmem S512x8x3 .f32) (harg1 : arg1.IsWhole) (arg2 : Memref sig .tc .vmem S512x8x3 .f32) (harg2 : arg2.IsWhole) (arg3 : Memref sig .tc .vmem S512x8x3 .f32) (harg3 : arg3.IsWhole) (arg4 : Memref sig .tc .vmem S512x3x3 .f32) (harg4 : arg4.IsWhole) (arg5 : Memref sig .tc .vmem S1x1 .f32) (harg5 : arg5.IsWhole) (arg6 : Memref sig .tc .vmem S1x1 .f32) (harg6 : arg6.IsWhole) (hc0 : cond0_0 i) (x0 : Vec F S512x8x3 .f32) (x1 : Vec F S512x8x3 .f32) (x2 : Vec F S512x8x3 .f32) (x3 : Vec F S512x3x3 .f32) :
    out0_A_5 c i arg1 harg1 arg2 harg2 arg3 harg3 arg4 harg4 arg5 harg5 arg6 harg6 hc0 x0 x1 x2 x3 = k0_pay1 (k0_pay6 (k0_pay4 x0) x2 x3) k0_pay3 := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x1) hz2, View.readCov_unit_zero (S := S1x1) _ hz2]
  simp only [View.readAt_eq_ld, harg1.read_unread, harg3.read_unread, harg4.read_unread,
    View.ld_unit_zero (S := S512x8x3) hz3, View.ld_unit_zero (S := S512x3x3) hz3]

end Cert.KernelIdeal.Pieces

end
-- ==== Proof.Spec.lean ====
/-
  The loss, entry by entry, on the extended reals.

  For a logit x and a target t the binary cross-entropy with logits is softplus x - x t, with
  softplus x = max x 0 + log (1 + e^(-|x|)).  A robot is assigned to a task when its logit exceeds one half;
  the capability a task receives in column c is the sum over the robots k of assigned(x k) * Q k c; the task's
  shortage is the sum over the columns of max (R c - capability c) 0, and it counts only when the task's logits
  sum to a positive number.

  Both programs spell these entries slightly differently (a subtraction of zero, a guard against "not a
  number" that the extended reals never take, the sign of |x| taken by subtracting from zero or by negating, the
  indicator read from a one-bit word or from its 32-bit extension).  The lemmas here bring each spelling to the
  entries above; none of them needs a finite argument.
-/
import Idealize.ShloMosaic.Lib.ValueIdx
import Idealize.ShloMosaic.PureOps.Ideal.Laws

noncomputable section

open scoped BigOperators

namespace Cert.Loss

open Idealize.ShloMosaic

/-- softplus x = max x 0 + log (1 + e^(-|x|)), |x| = max x (-x). -/
def softplus (x : EReal) : EReal := max x 0 + Ideal.log1p (Ideal.exp (-(max x (-x))))

/-- Binary cross-entropy with logits of one entry. -/
def bce (x t : EReal) : EReal := softplus x - x * t

/-- One half, as the 32-bit pattern both programs compare against. -/
abbrev half : EReal := Ideal.ofBits .f32 0x3F000000#32

/-- The indicator of x > 1/2, as an extended real (0 or 1). -/
def assigned (x : EReal) : EReal := (((Ideal.cmp .ogt x half).toNat : ℝ) : EReal)

/-- The shortage of one task: over the three columns, what the requirement exceeds the assigned robots' capability by. -/
def shortage (p r : Fin 3 → EReal) (q : Fin 3 → Fin 3 → EReal) : EReal :=
  ∑ c : Fin 3, max (r c - ∑ k : Fin 3, assigned (p k) * q k c) 0

/-- The task's term: its shortage when its logits sum to a positive number, else zero. -/
def cap (p r : Fin 3 → EReal) (q : Fin 3 → Fin 3 → EReal) : EReal :=
  Scalar.select (Ideal.cmp .ogt (∑ k : Fin 3, p k) 0) (shortage p r q) 0

/-- No extended real differs from itself. -/
theorem cmp_ne_self (x : EReal) : Ideal.cmp .une x x = 0#1 := by
  simp [Ideal.cmp]

theorem cmp_one_self (x : EReal) : Ideal.cmp .one x x = 0#1 := by
  simp [Ideal.cmp]

/-- The kernel's spelling of softplus (zero subtracted, the guard, zero minus |x|). -/
theorem softplus_kernel (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = softplus x := by
  rw [cmp_one_self, ValueIdx.select_zero, Ideal.ofBits_zero_f32, sub_zero, zero_sub]
  rfl

/-- The reference's spelling of softplus (zero subtracted, the guard, |x| negated). -/
theorem softplus_host (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = softplus x := by
  rw [cmp_ne_self, ValueIdx.select_zero, Ideal.ofBits_zero_f32, sub_zero]
  rfl

/-- A one-bit word extended to 32 bits and read signed is the bit. -/
theorem toInt_setWidth_bit : ∀ b : BitVec 1, (b.setWidth 32).toInt = (b.toNat : ℤ) := by decide

/-- The kernel's indicator: the comparison bit extended to 32 bits, read signed. -/
theorem assigned_kernel (x : EReal) :
    ((((Ideal.cmp .ogt x half).setWidth 32).toInt : ℝ) : EReal) = assigned x := by
  unfold assigned
  rw [toInt_setWidth_bit]
  simp

/-- The capability a task receives in one column, accumulated robot by robot from zero, is the sum over the robots. -/
theorem capability_chain (a q : Fin 3 → EReal) :
    Ideal.ofBits .f32 0x00000000#32 + a 0 * q 0 + a 1 * q 1 + a 2 * q 2 = ∑ k : Fin 3, a k * q k := by
  rw [Ideal.ofBits_zero_f32, zero_add, Fin.sum_univ_three]

end Cert.Loss

end
-- ==== Proof.Totals.lean ====
/-
  The two totals of the loss over the whole batch, as functions of the arrays.

  P, T, R are arrays of 2097152 rows of 8 tasks by 3 robots (P the logits, T the targets, R the requirements), Q
  2097152 rows of 3 robots by 3 capability columns.  The first total is the sum over every row, task and robot of
  the cross-entropy entry; the second the sum over every row and task of the task's capability term.
-/
import proofs.«134858_j76716705841545_2_alg».proof.Proof.Spec

noncomputable section

open scoped BigOperators

namespace Cert.Loss

open Idealize.ShloMosaic Idealize.ShloMosaic.ValueIdx

/-- Rows by tasks by robots. -/
abbrev SB83 : Shape := ⟨3, ![2097152, 8, 3]⟩
/-- Rows by robots by capability columns. -/
abbrev SB33 : Shape := ⟨3, ![2097152, 3, 3]⟩

/-- One row's cross-entropy: over its 8 tasks and 3 robots. -/
def rowBce (P T : SB83.Idx → EReal) (b : Fin 2097152) : EReal :=
  ∑ t : Fin 8, ∑ r : Fin 3, bce (P (ix3 b t r)) (T (ix3 b t r))

/-- One row's capability violation: over its 8 tasks. -/
def rowCap (P R : SB83.Idx → EReal) (Q : SB33.Idx → EReal) (b : Fin 2097152) : EReal :=
  ∑ t : Fin 8, cap (fun k => P (ix3 b t k)) (fun c => R (ix3 b t c)) (fun k c => Q (ix3 b k c))

/-- The cross-entropy summed over the batch. -/
def total1 (P T : SB83.Idx → EReal) : EReal := ∑ b : Fin 2097152, rowBce P T b

/-- The capability violation summed over the batch. -/
def total2 (P R : SB83.Idx → EReal) (Q : SB33.Idx → EReal) : EReal := ∑ b : Fin 2097152, rowCap P R Q b

end Cert.Loss

end
-- ==== Proof.LibFirstAxis.lean ====
/-
  Reductions of a matrix along its FIRST axis, on the extended reals, for any sizes.

  Over a result index `q` (a column), the source index with coordinate `k` on the reduced axis is `(k, q)`; so a
  kernel's sum of an `[a, b]` matrix along axis 0 from the zero word is, at column `q`, the finite sum over the rows
  `k` of the entries `(k, q)`.  With `b = 1` this is the sum of a column vector `[a, 1]` into `[1]`.
-/
import Idealize.ShloMosaic.Lib.ValueIdx
import Idealize.ShloMosaic.PureOps.Ideal.Laws

noncomputable section

open scoped BigOperators

namespace Cert.Lib.FirstAxis

open Idealize.ShloMosaic Idealize.ShloMosaic.ValueIdx

/-- The source index over column `q` with row coordinate `k` is `(k, q)`. -/
theorem lift_first2 {a b : ℕ} (h : (⟨2, ![a, b]⟩ : Shape).Reduces [(0 : Fin 2)] ⟨1, ![b]⟩) (q : Fin b)
    (k : Fin ((⟨2, ![a, b]⟩ : Shape).size 0)) : h.lift (ix1 q) k = ix2 (k : Fin a) q := by
  funext c; apply Fin.ext; rw [h.lift_val]
  match c with
  | ⟨0, _⟩ => rfl
  | ⟨1, _⟩ => rfl

/-- A kernel's sum of a matrix along its first axis from the neutral word, at column `q`: the sum over the rows. -/
theorem laneSum_first2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_first2 h q k))

end Cert.Lib.FirstAxis

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibRank3Middle.lean ====
import Idealize.ShloMosaic.Lib.ValueIdx
import Idealize.ShloMosaic.Lib.Pipeline.Value
import Idealize.ShloMosaic.PureOps.Ideal.Laws

/-!
# Rank-3 arrays along their middle axis, and a running maximum of real numbers

Three facts that hold for any sizes.

* A reduction of a rank-3 array `[n0, n1, n2]` along its middle axis to `[n0, n2]`: over a result index `(p, q)`
  the source index whose reduced coordinate is `k` is `(p, k, q)`. With it a lane sum or a lane maximum along the
  middle axis reads, on the extended reals, as the sum or the fold of max over `k` of the source at `(p, k, q)`.
* A broadcast between two rank-3 shapes read at `(p, q, r)`: the operand at the same coordinates, `0` on each of
  its unit axes.
* Folding `max` from minus infinity over a nonempty finite family of coerced real numbers gives the coercion of
  the family's supremum: a running maximum started at minus infinity is a real number as soon as one real has
  been seen.
-/

noncomputable section

namespace Cert.Lib.Rank3Middle

open Idealize.ShloMosaic Idealize.ShloMosaic.ValueIdx

/-- Over a result index `(p, q)` of a reduction along the middle axis, the source index with coordinate `k` on
    the reduced axis is `(p, k, q)`. -/
theorem lift_mid {n0 n1 n2 : ℕ} (h : (⟨3, ![n0, n1, n2]⟩ : Shape).Reduces [(1 : Fin 3)] ⟨2, ![n0, n2]⟩) (p : Fin n0) (q : Fin n2)
    (k : Fin ((⟨3, ![n0, n1, n2]⟩ : Shape).size 1)) : h.lift (ix2 p q) k = ix3 p (k : Fin n1) q := by
  funext c; apply Fin.ext; rw [h.lift_val]
  match c with
  | ⟨0, _⟩ => rfl
  | ⟨1, _⟩ => rfl
  | ⟨2, _⟩ => rfl

/-- A rank-3 broadcast read at `(p, q, r)`: the operand at the same coordinates, zero on its unit axes. -/
theorem bcast3_apply {α : Type} {a b c a' b' c' : ℕ} (v : (⟨3, ![a, b, c]⟩ : Shape).Idx → α)
    (h : (⟨3, ![a, b, c]⟩ : Shape).Broadcasts ⟨3, ![a', b', c']⟩) (p : Fin a') (q : Fin b') (r : Fin c')
    (p0 : Fin a) (q0 : Fin b) (r0 : Fin c) (hp : p0.val = if a = 1 then 0 else p.val) (hq : q0.val = if b = 1 then 0 else q.val)
    (hr : r0.val = if c = 1 then 0 else r.val) :
    broadcastTo ⟨3, ![a', b', c']⟩ v h (ix3 p q r) = v (ix3 p0 q0 r0) := by
  refine broadcastTo_apply v h (ix3 p q r) (ix3 p0 q0 r0) fun ax => ?_
  match ax with
  | ⟨0, _⟩ => exact hp
  | ⟨1, _⟩ => exact hq
  | ⟨2, _⟩ => exact hr

/-- Folding `max` from minus infinity over a nonempty family of coerced reals gives the coerced supremum. -/
theorem fold_max_coe {ι : Type} (s : Finset ι) (hs : s.Nonempty) (f : ι → ℝ) :
    s.fold max (⊥ : EReal) (fun i => ((f i : ℝ) : EReal)) = ((s.sup' hs f : ℝ) : EReal) := by
  rw [Finset.comp_sup'_eq_sup'_comp hs (fun x : ℝ => (x : EReal)) (fun x y => EReal.coe_strictMono.monotone.map_max),
    Finset.sup'_eq_sup]
  rfl

end Cert.Lib.Rank3Middle

end
-- ==== Proof.LibColumns3.lean ====
/-
  Small layout readings used by the kernel's block sums, for any sizes.

  * A vector [a] viewed as a column [a, 1] reads, at (k, 0), the vector at k.
  * A kernel's sum of a rank-3 array along its last axis from the zero word is, at (p, q), the finite sum over
    the last coordinate.
  * One column r0 of a rank-3 array [a, b, c], taken as the slice [a, b, 1], broadcast back along the last axis,
    reads at (p, q, k) the array at (p, q, r0) for every k; one middle row r0, taken as the slice [a, 1, c] and
    broadcast back along the middle axis, reads at (p, q, k) the array at (p, r0, k) for every q.
-/
import proofs.«134858_j76716705841545_2_alg».proof.Proof.LibLastAxis
import proofs.«134858_j76716705841545_2_alg».proof.Proof.LibRank3Middle

noncomputable section

open scoped BigOperators

namespace Cert.Lib.Columns3

open Idealize.ShloMosaic Idealize.ShloMosaic.ValueIdx Cert.Lib.LastAxis Cert.Lib.Rank3Middle

/-- A vector viewed as a one-column matrix. -/
theorem colCast_apply {α : Type} {a : ℕ} (v : (⟨1, ![a]⟩ : Shape).Idx → α)
    (h : (⟨1, ![a]⟩ : Shape).ShapeCasts ⟨2, ![a, 1]⟩) (k : Fin a) (z : Fin 1) :
    shapeCast ⟨2, ![a, 1]⟩ v h (ix2 k z) = v (ix1 k) := by
  refine shapeCast_apply v h (ix2 k z) (ix1 k) ?_
  rw [Shape.rowMajor_val_one, Shape.rowMajor_val_two]
  show k.val = k.val * 1 + z.val
  have := z.isLt
  omega

/-- A kernel's lane sum of a rank-3 array along its last axis from the neutral word, at (p, q). -/
theorem laneSum_last3 {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- Column r0 of a rank-3 array, as the slice [a, b, 1] read at (p, q, 0). -/
theorem lastSlice_apply {α : Type} {a b c : ℕ} (x : (⟨3, ![a, b, c]⟩ : Shape).Idx → α) (off : Fin 3 → ℕ) (r0 : Fin c)
    (h0 : off 0 = 0) (h1 : off 1 = 0) (h2 : off 2 = r0.val)
    (hs : (⟨3, ![a, b, c]⟩ : Shape).Slices off ⟨3, ![a, b, 1]⟩) (p : Fin a) (q : Fin b) (z : Fin 1) :
    extractStridedSlice ⟨3, ![a, b, 1]⟩ off x hs (ix3 p q z) = x (ix3 p q r0) := by
  refine extractStridedSlice_apply off x hs (ix3 p q z) (ix3 p q r0) fun ax => ?_
  match ax with
  | ⟨0, _⟩ => show p.val = off 0 + p.val; rw [h0]; omega
  | ⟨1, _⟩ => show q.val = off 1 + q.val; rw [h1]; omega
  | ⟨2, _⟩ => show r0.val = off 2 + z.val; rw [h2]; have := z.isLt; omega

/-- Middle row r0 of a rank-3 array, as the slice [a, 1, c] read at (p, 0, k). -/
theorem midSlice_apply {α : Type} {a b c : ℕ} (x : (⟨3, ![a, b, c]⟩ : Shape).Idx → α) (off : Fin 3 → ℕ) (r0 : Fin b)
    (h0 : off 0 = 0) (h1 : off 1 = r0.val) (h2 : off 2 = 0)
    (hs : (⟨3, ![a, b, c]⟩ : Shape).Slices off ⟨3, ![a, 1, c]⟩) (p : Fin a) (z : Fin 1) (k : Fin c) :
    extractStridedSlice ⟨3, ![a, 1, c]⟩ off x hs (ix3 p z k) = x (ix3 p r0 k) := by
  refine extractStridedSlice_apply off x hs (ix3 p z k) (ix3 p r0 k) fun ax => ?_
  match ax with
  | ⟨0, _⟩ => show p.val = off 0 + p.val; rw [h0]; omega
  | ⟨1, _⟩ => show r0.val = off 1 + z.val; rw [h1]; have := z.isLt; omega
  | ⟨2, _⟩ => show k.val = off 2 + k.val; rw [h2]; omega

/-- Column r0, as [a, b, 1], broadcast along the last axis: at (p, q, k) the array at (p, q, r0). -/
theorem colBcast_apply {α : Type} {a b c : ℕ} (x : (⟨3, ![a, b, c]⟩ : Shape).Idx → α) (off : Fin 3 → ℕ) (r0 : Fin c)
    (h0 : off 0 = 0) (h1 : off 1 = 0) (h2 : off 2 = r0.val)
    (hs : (⟨3, ![a, b, c]⟩ : Shape).Slices off ⟨3, ![a, b, 1]⟩)
    (hb : (⟨3, ![a, b, 1]⟩ : Shape).Broadcasts ⟨3, ![a, b, c]⟩) (p : Fin a) (q : Fin b) (k : Fin c) :
    broadcastTo ⟨3, ![a, b, c]⟩ (extractStridedSlice ⟨3, ![a, b, 1]⟩ off x hs) hb (ix3 p q k) = x (ix3 p q r0) := by
  rw [bcast3_apply _ hb p q k p q (0 : Fin 1)
    (by split_ifs with h; · subst h; have := p.isLt; omega
        · rfl)
    (by split_ifs with h; · subst h; have := q.isLt; omega
        · rfl)
    (by rw [if_pos rfl]; rfl)]
  exact lastSlice_apply x off r0 h0 h1 h2 hs p q 0

/-- Middle row r0, as [a, 1, c], broadcast along the middle axis: at (p, q, k) the array at (p, r0, k). -/
theorem rowBcast_apply {α : Type} {a b b' c : ℕ} (x : (⟨3, ![a, b, c]⟩ : Shape).Idx → α) (off : Fin 3 → ℕ) (r0 : Fin b)
    (h0 : off 0 = 0) (h1 : off 1 = r0.val) (h2 : off 2 = 0)
    (hs : (⟨3, ![a, b, c]⟩ : Shape).Slices off ⟨3, ![a, 1, c]⟩)
    (hb : (⟨3, ![a, 1, c]⟩ : Shape).Broadcasts ⟨3, ![a, b', c]⟩) (p : Fin a) (q : Fin b') (k : Fin c) :
    broadcastTo ⟨3, ![a, b', c]⟩ (extractStridedSlice ⟨3, ![a, 1, c]⟩ off x hs) hb (ix3 p q k) = x (ix3 p r0 k) := by
  rw [bcast3_apply _ hb p q k p (0 : Fin 1) k
    (by split_ifs with h; · subst h; have := p.isLt; omega
        · rfl)
    (by rw [if_pos rfl]; rfl)
    (by split_ifs with h; · subst h; have := k.isLt; omega
        · rfl)]
  exact midSlice_apply x off r0 h0 h1 h2 hs p 0 k

end Cert.Lib.Columns3

end
-- ==== Proof.KernelPayload.lean ====
/-
  The kernel body's two block sums, on the extended reals.

  From a block of 512 rows (8 tasks by 3 robots each) of logits x0 and targets x1 the body adds to its first
  accumulator the sum over the block's rows, tasks and robots of the cross-entropy entry; from the logits, the
  requirements x2 and the block of 512 capability matrices x3 it computes, for its second accumulator, the sum over
  the block's rows and tasks of the task's capability term.  The sums are taken axis by axis (robots or columns,
  then tasks, then rows); the capability of a task is accumulated robot by robot from zero.
-/
import proofs.«134858_j76716705841545_2_alg».proof.Proof.Totals
import proofs.«134858_j76716705841545_2_alg».proof.Proof.LibFirstAxis
import proofs.«134858_j76716705841545_2_alg».proof.Proof.LibColumns3
import proofs.«134858_j76716705841545_2_alg».proof.Proof.Gen.KernelIdeal.Skeleton

noncomputable section

open scoped BigOperators

namespace Cert.KernelIdeal.Payload

open Cert.KernelIdeal Cert.KernelIdeal.Gen Idealize.ShloMosaic Idealize.ShloMosaic.ValueIdx Cert.Loss
open Cert.Lib.LastAxis Cert.Lib.FirstAxis Cert.Lib.Columns3

/-- A block's cross-entropy: over its 512 rows, 8 tasks and 3 robots. -/
def blockBce (x0 x1 : S512x8x3.Idx → EReal) : EReal :=
  ∑ p : Fin 512, ∑ t : Fin 8, ∑ r : Fin 3, bce (x0 (ix3 p t r)) (x1 (ix3 p t r))

/-- A block's capability violation: over its 512 rows and 8 tasks. -/
def blockCap (x0 x2 : S512x8x3.Idx → EReal) (x3 : S512x3x3.Idx → EReal) : EReal :=
  ∑ p : Fin 512, ∑ t : Fin 8, cap (fun k => x0 (ix3 p t k)) (fun c => x2 (ix3 p t c)) (fun k c => x3 (ix3 p k c))

/-- The first accumulator's store: the accumulator found plus the block's cross-entropy. -/
theorem pay5_eq (x0 x1 : FVec Ideal S512x8x3 .f32) (acc : FVec Ideal S1x1 .f32) (p q : Fin 1) :
    k0_pay5 (F := Ideal) x0 x1 acc (ix2 p q) = acc (ix2 p q) + blockBce x0 x1 := by
  unfold k0_pay5 k0_pay4
  simp only [shapeCast_self]
  refine congrArg (acc (ix2 p q) + ·) ?_
  refine (colCast_apply _ _ p q).trans ?_
  refine (laneSum_first2 _ _ _ _ _ p).trans ?_
  unfold blockBce
  refine Finset.sum_congr rfl fun k _ => ?_
  refine (colCast_apply _ _ k p).trans ?_
  refine (laneSum_last2 _ _ _ _ _ k).trans ?_
  refine Finset.sum_congr rfl fun t _ => ?_
  refine (laneSum_last3 _ _ _ _ _ k t).trans ?_
  refine Finset.sum_congr rfl fun r _ => ?_
  exact congrArg (· - x0 (ix3 k t r) * x1 (ix3 k t r)) (softplus_kernel (x0 (ix3 k t r)))

end Cert.KernelIdeal.Payload

end
-- ==== Proof.KernelCapPayload.lean ====
/-
  The kernel body's second block sum and its two accumulators, on the extended reals.

  From a block of 512 rows of logits x0 (8 tasks by 3 robots each), requirements x2 and capability matrices x3
  (3 robots by 3 columns each) the body computes the sum over the block's rows and tasks of the task's capability
  term: the task's shortage, the sum over the columns of max (requirement - capability) 0, when the task's logits
  sum to a positive number, and zero otherwise.  The sums are taken axis by axis (columns or robots, then tasks,
  then rows), each from zero; the capability of a task in a column is accumulated from zero robot by robot.  Both
  accumulators are set to zero at the first block, and the second is updated by adding the block's value to it.
-/
import proofs.«134858_j76716705841545_2_alg».proof.Proof.KernelPayload
noncomputable section
open scoped BigOperators
namespace Cert.KernelIdeal.Payload
open Cert.KernelIdeal Cert.KernelIdeal.Gen Idealize.ShloMosaic Idealize.ShloMosaic.ValueIdx Cert.Loss
open Cert.Lib.LastAxis Cert.Lib.FirstAxis Cert.Lib.Columns3

/-- A choice on "A exceeds Z1" between B and Z2 is the task's term once A is the task's logit sum, B its
    shortage, and Z1, Z2 are zero. -/
theorem select_cap_of {A B Z1 Z2 : EReal} {p r : Fin 3 → EReal} {q : Fin 3 → Fin 3 → EReal}
    (hA : A = ∑ k : Fin 3, p k) (hB : B = shortage p r q) (hZ1 : Z1 = 0) (hZ2 : Z2 = 0) :
    Scalar.select (Ideal.cmp .ogt A Z1) B Z2 = cap p r q := by
  subst hA hB hZ1 hZ2; rfl

/-- max (X - S) Z with S and Z replaced by their values. -/
theorem max_sub_of {X S S' Z : EReal} (hS : S = S') (hZ : Z = 0) : max (X - S) Z = max (X - S') 0 := by
  subst hS hZ; rfl

/-- A sum of three products from z, factor by factor. -/
theorem chain_congr {z a0 b0 a1 b1 a2 b2 a0' b0' a1' b1' a2' b2' : EReal}
    (h0 : a0 = a0') (g0 : b0 = b0') (h1 : a1 = a1') (g1 : b1 = b1') (h2 : a2 = a2') (g2 : b2 = b2') :
    z + a0 * b0 + a1 * b1 + a2 * b2 = z + a0' * b0' + a1' * b1' + a2' * b2' := by
  subst h0 g0 h1 g1 h2 g2; rfl

/-- The second block sum: the block's capability violation.  The body sums over the rows p the sum over the tasks t
    of a choice, on whether the task's three logits sum to a positive number, between the sum over the columns c
    of max (x2(p,t,c) - capability(p,t,c)) 0 and zero.  The capability is accumulated from zero robot by robot:
    robot r0's term is column r0 of the indicators, repeated along the columns, times row r0 of the block's
    capability matrix, repeated along the tasks, that is assigned(x0(p,t,r0)) * x3(p,r0,c).  The indicator is the
    comparison with one half, its bit widened to 32 bits and read signed, which is 0 or 1. -/
theorem pay6_eq (x0 x2 : FVec Ideal S512x8x3 .f32) (x3 : FVec Ideal S512x3x3 .f32) (p q : Fin 1) :
    k0_pay6 (F := Ideal) (k0_pay4 x0) x2 x3 (ix2 p q) = blockCap x0 x2 x3 := by
  unfold k0_pay6 k0_pay4
  simp only [shapeCast_self, shapeCast_shapeCast]
  refine (colCast_apply _ _ p q).trans ?_
  refine (laneSum_first2 _ _ _ _ _ p).trans ?_
  unfold blockCap
  refine Finset.sum_congr rfl fun k _ => ?_
  refine (colCast_apply _ _ k p).trans ?_
  refine (laneSum_last2 _ _ _ _ _ k).trans ?_
  refine Finset.sum_congr rfl fun t _ => ?_
  refine (select_apply _ _ _ _).trans ?_
  refine select_cap_of ?_ ?_ Ideal.ofBits_zero_f32 Ideal.ofBits_zero_f32
  · exact laneSum_last3 _ _ _ _ _ k t
  · refine (laneSum_last3 _ _ _ _ _ k t).trans ?_
    unfold shortage
    refine Finset.sum_congr rfl fun c _ => ?_
    refine max_sub_of ?_ Ideal.ofBits_zero_f32
    refine Eq.trans ?_ (capability_chain (fun r => assigned (x0 (ix3 k t r))) (fun r => x3 (ix3 k r c)))
    refine chain_congr ?_ ?_ ?_ ?_ ?_ ?_
    · exact (colBcast_apply _ ![0, 0, 0] (0 : Fin 3) rfl rfl rfl _ _ k t c).trans (assigned_kernel _)
    · exact rowBcast_apply _ ![0, 0, 0] (0 : Fin 3) rfl rfl rfl _ _ k t c
    · exact (colBcast_apply _ ![0, 0, 1] (1 : Fin 3) rfl rfl rfl _ _ k t c).trans (assigned_kernel _)
    · exact rowBcast_apply _ ![0, 1, 0] (1 : Fin 3) rfl rfl rfl _ _ k t c
    · exact (colBcast_apply _ ![0, 0, 2] (2 : Fin 3) rfl rfl rfl _ _ k t c).trans (assigned_kernel _)
    · exact rowBcast_apply _ ![0, 2, 0] (2 : Fin 3) rfl rfl rfl _ _ k t c

/-- The second accumulator's store: the accumulator found plus the value added. -/
theorem pay1_eq (v acc : FVec Ideal S1x1 .f32) (j : S1x1.Idx) : k0_pay1 (F := Ideal) v acc j = acc j + v j := by
  unfold k0_pay1
  simp only [shapeCast_self]
  rfl

/-- The first accumulator starts from the zero word, which is the extended real 0. -/
theorem pay2_eq (j : S1x1.Idx) : k0_pay2 (F := Ideal) j = 0 := Ideal.ofBits_zero_f32

/-- The second accumulator starts from the zero word as well. -/
theorem pay3_eq (j : S1x1.Idx) : k0_pay3 (F := Ideal) j = 0 := Ideal.ofBits_zero_f32

end Cert.KernelIdeal.Payload
end
-- ==== Proof.KernelBlocks.lean ====
/-
  What the kernel's windows read, point by point.

  The grid has 4096 points; at point t each of the four input windows reads block t of its array along the batch
  axis: rows 512 t .. 512 t + 511, whole in the other two axes.  So entry (p, q, r) of the block at point t is entry
  (512 t + p, q, r) of the array.  The first two arrays are the logits and the targets viewed as rows by tasks by
  robots (a reshape done before the launch); the last two are the requirements and the capability matrices as given.
-/
import proofs.«134858_j76716705841545_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- At point t every input window is on block t of the batch axis and block 0 of the other two. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Row p of block t is row 512 t + p of the batch. -/
def rowOf (t : Fin cfg0.N) (p : Fin 512) : Fin 2097152 :=
  ⟨512 * t.val + p.val, by
    have hN : t.val < 4096 := lt_of_lt_of_eq t.isLt (show cfg0.N = 4096 from N_0)
    have := p.isLt
    omega⟩

theorem rowOf_val (t : Fin cfg0.N) (p : Fin 512) : (rowOf t p).val = 512 * t.val + p.val := rfl

/-- The logits' block at point t. -/
theorem iblk0_apply (c : Dev nD) (t : Fin cfg0.N) (p : Fin 512) (q : Fin 8) (r : Fin 3) :
    (iblk m c 0 t : Vec F S512x8x3 .f32) (ix3 p q r) = V m c main_v0 (ix3 (rowOf t p) q r) := by
  obtain ⟨h0, h1, h2⟩ := idx0 t
  unfold iblk
  rw [View.read_apply]
  show V m c main_v0 _ = V m c main_v0 _
  congr 1
  funext a
  apply Fin.ext
  match a with
  | ⟨0, _⟩ => show win0_0.index t 0 * 512 + 1 * p.val = 512 * t.val + p.val; rw [h0]; omega
  | ⟨1, _⟩ => show win0_0.index t 1 * 8 + 1 * q.val = q.val; rw [h1]; omega
  | ⟨2, _⟩ => show win0_0.index t 2 * 3 + 1 * r.val = r.val; rw [h2]; omega

/-- The targets' block at point t. -/
theorem iblk1_apply (c : Dev nD) (t : Fin cfg0.N) (p : Fin 512) (q : Fin 8) (r : Fin 3) :
    (iblk m c 1 t : Vec F S512x8x3 .f32) (ix3 p q r) = V m c main_v1 (ix3 (rowOf t p) q r) := by
  obtain ⟨h0, h1, h2⟩ := idx1 t
  unfold iblk
  rw [View.read_apply]
  show V m c main_v1 _ = V m c main_v1 _
  congr 1
  funext a
  apply Fin.ext
  match a with
  | ⟨0, _⟩ => show win0_1.index t 0 * 512 + 1 * p.val = 512 * t.val + p.val; rw [h0]; omega
  | ⟨1, _⟩ => show win0_1.index t 1 * 8 + 1 * q.val = q.val; rw [h1]; omega
  | ⟨2, _⟩ => show win0_1.index t 2 * 3 + 1 * r.val = r.val; rw [h2]; omega

/-- The requirements' block at point t. -/
theorem iblk2_apply (c : Dev nD) (t : Fin cfg0.N) (p : Fin 512) (q : Fin 8) (r : Fin 3) :
    (iblk m c 2 t : Vec F S512x8x3 .f32) (ix3 p q r) = V m c main_arg2 (ix3 (rowOf t p) q r) := by
  obtain ⟨h0, h1, h2⟩ := idx2 t
  unfold iblk
  rw [View.read_apply]
  show V m c main_arg2 _ = V m c main_arg2 _
  congr 1
  funext a
  apply Fin.ext
  match a with
  | ⟨0, _⟩ => show win0_2.index t 0 * 512 + 1 * p.val = 512 * t.val + p.val; rw [h0]; omega
  | ⟨1, _⟩ => show win0_2.index t 1 * 8 + 1 * q.val = q.val; rw [h1]; omega
  | ⟨2, _⟩ => show win0_2.index t 2 * 3 + 1 * r.val = r.val; rw [h2]; omega

/-- The capability matrices' block at point t. -/
theorem iblk3_apply (c : Dev nD) (t : Fin cfg0.N) (p : Fin 512) (q : Fin 3) (r : Fin 3) :
    (iblk m c 3 t : Vec F S512x3x3 .f32) (ix3 p q r) = V m c main_arg3 (ix3 (rowOf t p) q r) := by
  obtain ⟨h0, h1, h2⟩ := idx3 t
  unfold iblk
  rw [View.read_apply]
  show V m c main_arg3 _ = V m c main_arg3 _
  congr 1
  funext a
  apply Fin.ext
  match a with
  | ⟨0, _⟩ => show win0_3.index t 0 * 512 + 1 * p.val = 512 * t.val + p.val; rw [h0]; omega
  | ⟨1, _⟩ => show win0_3.index t 1 * 3 + 1 * q.val = q.val; rw [h1]; omega
  | ⟨2, _⟩ => show win0_3.index t 2 * 3 + 1 * r.val = r.val; rw [h2]; omega

/-- The launch finds the logits viewed as rows by tasks by robots. -/
theorem V_main_v0 (c : Dev nD) :
    (V m c main_v0 : S2097152x8x3.Idx → Elt F .f32)
      = shapeCast S2097152x8x3 (m ((c : Thread nD τ).loc main_arg0)) shapeCasts_S2097152x24_S2097152x8x3 := by
  show StableHlo.after hostOps0 (fun b => m (c, b)) (Proc.devRef .tc main_v0) = _
  after_results
  rfl

/-- The launch finds the targets viewed as rows by tasks by robots. -/
theorem V_main_v1 (c : Dev nD) :
    (V m c main_v1 : S2097152x8x3.Idx → Elt F .f32)
      = shapeCast S2097152x8x3 (m ((c : Thread nD τ).loc main_arg1)) shapeCasts_S2097152x24_S2097152x8x3 := by
  show StableHlo.after hostOps0 (fun b => m (c, b)) (Proc.devRef .tc main_v1) = _
  after_results
  rfl

end Cert.KernelIdeal.Blocks

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.KernelAccum.lean ====
/-
  The two accumulators over the grid, and what the two result arrays hold after the run.

  After point n the first accumulator holds the sum over the points 0..n of the block's cross-entropy, the second the
  sum over the same points of the block's capability violation: the first point starts from the zero it has just
  stored, every later point from what the point before left (induction on the point).  Both 1x1 result arrays are
  written back once, after the last point, so they end holding the sums over all 4096 points.  A block's sum is the sum
  over its 512 rows of the row's term, and 4096 blocks of 512 consecutive rows are the 2097152 rows of the batch, so
  the two arrays end at the two totals of the loss.
-/
import proofs.«134858_j76716705841545_2_alg».proof.Proof.KernelPieces
import proofs.«134858_j76716705841545_2_alg».proof.Proof.KernelCapPayload
import proofs.«134858_j76716705841545_2_alg».proof.Proof.KernelBlocks
import proofs.«134858_j76716705841545_2_alg».proof.Proof.LibBlockSums

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.Loss
open Cert.KernelIdeal.Payload Cert.KernelIdeal.Pieces Cert.KernelIdeal.Blocks

variable (m : (ℓ : Loc nD τ sig) → Buf (Elt Ideal) ℓ)

/-! ## The stores' values as functions of the block -/

theorem pay5_fun (x0 x1 : FVec Ideal S512x8x3 .f32) (acc : FVec Ideal S1x1 .f32) :
    k0_pay5 (F := Ideal) x0 x1 acc = fun j => acc j + blockBce x0 x1 :=
  funext fun j => by rw [eq_ix2 j]; exact pay5_eq x0 x1 acc _ _

theorem cap_fun (x0 x2 : FVec Ideal S512x8x3 .f32) (x3 : FVec Ideal S512x3x3 .f32) (acc : FVec Ideal S1x1 .f32) :
    k0_pay1 (F := Ideal) (k0_pay6 (k0_pay4 x0) x2 x3) acc = fun j => acc j + blockCap x0 x2 x3 :=
  funext fun j => by rw [pay1_eq, eq_ix2 j]; exact congrArg (acc _ + ·) (pay6_eq x0 x2 x3 _ _)

/-! ## The running sums -/

/-- Point n's cross-entropy block sum (zero past the grid). -/
def g1 (c : Dev nD) (n : ℕ) : EReal :=
  if h : n < cfg0.N then blockBce (iblk m c 0 ⟨n, h⟩) (iblk m c 1 ⟨n, h⟩) else 0

/-- Point n's capability block sum (zero past the grid). -/
def g2 (c : Dev nD) (n : ℕ) : EReal :=
  if h : n < cfg0.N then blockCap (iblk m c 0 ⟨n, h⟩) (iblk m c 2 ⟨n, h⟩) (iblk m c 3 ⟨n, h⟩) else 0

theorem g1_of_lt (c : Dev nD) (n : ℕ) (h : n < cfg0.N) :
    g1 m c n = blockBce (iblk m c 0 ⟨n, h⟩) (iblk m c 1 ⟨n, h⟩) := dif_pos h

theorem g2_of_lt (c : Dev nD) (n : ℕ) (h : n < cfg0.N) :
    g2 m c n = blockCap (iblk m c 0 ⟨n, h⟩) (iblk m c 2 ⟨n, h⟩) (iblk m c 3 ⟨n, h⟩) := dif_pos h

/-- After point n the accumulators hold the sums over the points 0..n. -/
theorem outsAt_eq (c : Dev nD) : ∀ (n : ℕ) (h : n < cfg0.N),
    (outsAt0 m c n h).1 = (fun _ => ∑ i ∈ Finset.range (n + 1), g1 m c i)
      ∧ (outsAt0 m c n h).2 = (fun _ => ∑ i ∈ Finset.range (n + 1), g2 m c i)
  | 0, h => by
    rw [outsAt0_A m c ⟨0, h⟩ rfl]
    dsimp only
    refine ⟨?_, ?_⟩
    · rw [outA4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩) (iblk m c 3 ⟨0, h⟩), pay5_fun]
      funext j
      rw [pay2_eq, zero_add, Finset.sum_range_one, g1_of_lt m c 0 h]
    · rw [outA5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk m c 0 ⟨0, h⟩) (iblk m c 1 ⟨0, h⟩) (iblk m c 2 ⟨0, h⟩) (iblk m c 3 ⟨0, h⟩), cap_fun]
      funext j
      rw [pay3_eq, zero_add, Finset.sum_range_one, g2_of_lt m c 0 h]
  | n + 1, h => by
    have hN : cfg0.N = 4096 := N_0
    have hB : ¬(⟨n + 1, h⟩ : Fin cfg0.N).val % 4096 = 0 := by dsimp only; omega
    have ih := outsAt_eq c n (Nat.lt_of_succ_lt h)
    rw [outsAt0_B m c ⟨n + 1, h⟩ hB]
    dsimp only
    refine ⟨?_, ?_⟩
    · rw [outB4, pay5_fun]
      funext j
      show (outsAt0 m c n _).1 j + _ = _
      rw [ih.1, Finset.sum_range_succ _ (n + 1), g1_of_lt m c (n + 1) h]
    · rw [outB5, cap_fun]
      funext j
      show (outsAt0 m c n _).2 j + _ = _
      rw [ih.2, Finset.sum_range_succ _ (n + 1), g2_of_lt m c (n + 1) h]

end Cert.KernelIdeal.Accum

end
-- ==== Proof.Tail.lean ====
/-
  From the two totals to the four results.

  With s1 the cross-entropy total and s2 the capability total, both programs return
    base = s1 / 50331648 (the number of logits, 2097152 * 24),
    capv = s2 / 2097152 (the batch size),
    base + 0.1 * capv + 0.1 * 0,
  and a constant zero, with the same 32-bit words for 50331648, 2097152, 0.1 and 0 on both sides, the divisions
  the host's.  The words are never evaluated: the two programs apply the same operations to the same words.
-/
import Idealize.ShloMosaic.PureOps.Ideal
import Idealize.ShloMosaic.PureOps

noncomputable section

namespace Cert.Loss

open Idealize.ShloMosaic

/-- A scalar result: an array with no axes. -/
abbrev S0 : Shape := ⟨0, ![]⟩

/-- The mean cross-entropy. -/
def baseLoss (s1 : FVec Ideal S0 .f32) : FVec Ideal S0 .f32 :=
  Host.divf (F := Ideal) s1 (constant (F := Ideal) S0 .f32 0x4C400000#32)

/-- The mean capability violation. -/
def capLoss (s2 : FVec Ideal S0 .f32) : FVec Ideal S0 .f32 :=
  Host.divf (F := Ideal) s2 (constant (F := Ideal) S0 .f32 0x4A000000#32)

/-- The total loss. -/
def totalLoss (s1 s2 : FVec Ideal S0 .f32) : FVec Ideal S0 .f32 :=
  addf (addf (baseLoss s1) (mulf (constant (F := Ideal) S0 .f32 0x3DCCCCCD#32) (capLoss s2)))
    (mulf (constant (F := Ideal) S0 .f32 0x3DCCCCCD#32) (constant (F := Ideal) S0 .f32 0x00000000#32))

end Cert.Loss

end
-- ==== Proof.KernelTail.lean ====
/-
  The four results of the kernel program, from the two one-by-one arrays the launch leaves.

  After the launch the host reads each accumulator's one-by-one array as a scalar, divides the first by the word
  the programs write for the number of logits and the second by the word for the batch size, and returns the first
  quotient, the second, the first plus w times the second plus w times the zero word (w the word the programs write
  for 0.1), and a constant zero word.  The operations after the launch write none of the launch's
  arrays, so each accumulator is read as the launch left it; a one-by-one array holding the value a everywhere,
  viewed with no axes, is the scalar a; the remaining operations are, word for word, those of the four results
  as functions of the two totals.  No 32-bit word is evaluated.
-/
import proofs.«134858_j76716705841545_2_alg».proof.Proof.Tail
import proofs.«134858_j76716705841545_2_alg».proof.Proof.Gen.KernelIdeal.Frame
import Idealize.ShloMosaic.Lib.Pipeline.Value
import Idealize.ShloMosaic.Lib.StableHlo.Run
noncomputable section
open Idealize.ShloMosaic Idealize.ShloMosaic.TcCoe Idealize.SL.Sem
open Idealize.ShloMosaic.Pipeline (Dat)
namespace Cert.KernelIdeal.TailValue
open Cert.KernelIdeal Cert.KernelIdeal.Gen Cert.Loss
variable (m : (ℓ : Loc nD τ sig) → Buf (Elt Ideal) ℓ)

/-- After the launch the first accumulator's array holds what the launch left in it. -/
theorem arr4 (c : Dev nD) (a1 : EReal) (h4 : (dats m 0 c).arrAt 4 cfg0.N = fun _ => a1) :
    Pipeline.withArrays (cfgs 0).spec c (V0 m c) (fun w => (dats m 0 c).arrAt w (cfgs 0).N) (Proc.devRef .tc main_v2_0)
      = fun _ => a1 :=
  (Pipeline.withArrays_arr spec0 launch0.win.arr_inj c _ _ 4).trans h4

/-- After the launch the second accumulator's array holds what the launch left in it. -/
theorem arr5 (c : Dev nD) (a2 : EReal) (h5 : (dats m 0 c).arrAt 5 cfg0.N = fun _ => a2) :
    Pipeline.withArrays (cfgs 0).spec c (V0 m c) (fun w => (dats m 0 c).arrAt w (cfgs 0).N) (Proc.devRef .tc main_v2_1)
      = fun _ => a2 :=
  (Pipeline.withArrays_arr spec0 launch0.win.arr_inj c _ _ 5).trans h5

/-- The total loss: base + w * capv + w * (zero word), w the word written for 0.1, of the two accumulators' values,
    each read as a scalar (a one-by-one array holding one value everywhere, viewed with no axes, holds that value). -/
theorem tail_v10 (c : Dev nD) (a1 a2 : EReal)
    (h4 : (dats m 0 c).arrAt 4 cfg0.N = fun _ => a1) (h5 : (dats m 0 c).arrAt 5 cfg0.N = fun _ => a2) :
    Pipeline.afterTail₀ cfgs (dats m) 0 (V0 m) [hostOps1] c main_v10 = totalLoss (fun _ => a1) (fun _ => a2) := by
  unfold Pipeline.afterTail₀
  show StableHlo.after hostOps1 _ (Proc.devRef .tc main_v10) = _
  after_results
  rw [arr4 m c a1 h4, arr5 m c a2 h5]
  rfl

/-- The mean cross-entropy: the first accumulator's value divided by the word written for the number of logits. -/
theorem tail_v4 (c : Dev nD) (a1 : EReal) (h4 : (dats m 0 c).arrAt 4 cfg0.N = fun _ => a1) :
    Pipeline.afterTail₀ cfgs (dats m) 0 (V0 m) [hostOps1] c main_v4 = baseLoss (fun _ => a1) := by
  unfold Pipeline.afterTail₀
  show StableHlo.after hostOps1 _ (Proc.devRef .tc main_v4) = _
  after_results
  rw [arr4 m c a1 h4]
  rfl

/-- The mean capability violation: the second accumulator's value divided by the word written for the batch size. -/
theorem tail_v6 (c : Dev nD) (a2 : EReal) (h5 : (dats m 0 c).arrAt 5 cfg0.N = fun _ => a2) :
    Pipeline.afterTail₀ cfgs (dats m) 0 (V0 m) [hostOps1] c main_v6 = capLoss (fun _ => a2) := by
  unfold Pipeline.afterTail₀
  show StableHlo.after hostOps1 _ (Proc.devRef .tc main_v6) = _
  after_results
  rw [arr5 m c a2 h5]
  rfl

/-- The fourth result is the constant zero word. -/
theorem tail_cst_4 (c : Dev nD) :
    Pipeline.afterTail₀ cfgs (dats m) 0 (V0 m) [hostOps1] c main_cst_4 = constant (F := Ideal) S0 .f32 0x00000000#32 := by
  unfold Pipeline.afterTail₀
  show StableHlo.after hostOps1 _ (Proc.devRef .tc main_cst_4) = _
  after_results

end Cert.KernelIdeal.TailValue
end
-- ==== Proof.KernelFinal.lean ====
/-
  The kernel program's run, read: its four results as functions of the arrays the launch finds.

  A block's cross-entropy is the sum over its 512 rows of the row's cross-entropy, and row p of block t is row
  512 t + p of the batch; 4096 blocks of 512 consecutive rows are the 2097152 rows.  So the sum over the 4096 points of
  the block sums is the total over the batch, for both accumulators.  Each result array is one 1x1 block, written back
  once after the last point, when its accumulator holds the sum over all points; the host operations after the launch
  turn the two arrays into the four results.
-/
import proofs.«134858_j76716705841545_2_alg».proof.Proof.KernelAccum
import proofs.«134858_j76716705841545_2_alg».proof.Proof.KernelTail

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Loss
open Cert.KernelIdeal.Payload Cert.KernelIdeal.Blocks Cert.KernelIdeal.Accum Cert.KernelIdeal.TailValue

variable (m : (ℓ : Loc nD τ sig) → Buf (Elt Ideal) ℓ) (ρ : Dev nD → PrngReg)

/-! ## Block sums are sums of rows of the batch -/

theorem block_rows1 (c : Dev nD) (t : Fin cfg0.N) :
    blockBce (iblk m c 0 t) (iblk m c 1 t) = ∑ p : Fin 512, rowBce (V m c main_v0) (V m c main_v1) (rowOf t p) := by
  unfold blockBce rowBce
  exact Finset.sum_congr rfl fun p _ => Finset.sum_congr rfl fun q _ => Finset.sum_congr rfl fun r _ =>
    congrArg₂ bce (iblk0_apply m c t p q r) (iblk1_apply m c t p q r)

theorem block_rows2 (c : Dev nD) (t : Fin cfg0.N) :
    blockCap (iblk m c 0 t) (iblk m c 2 t) (iblk m c 3 t)
      = ∑ p : Fin 512, rowCap (V m c main_v0) (V m c main_arg2) (V m c main_arg3) (rowOf t p) := by
  unfold blockCap rowCap
  refine Finset.sum_congr rfl fun p _ => Finset.sum_congr rfl fun q _ => ?_
  have e0 : (fun k => (iblk m c 0 t : Vec Ideal S512x8x3 .f32) (ix3 p q k)) = fun k => V m c main_v0 (ix3 (rowOf t p) q k) :=
    funext fun k => iblk0_apply m c t p q k
  have e2 : (fun k => (iblk m c 2 t : Vec Ideal S512x8x3 .f32) (ix3 p q k)) = fun k => V m c main_arg2 (ix3 (rowOf t p) q k) :=
    funext fun k => iblk2_apply m c t p q k
  have e3 : (fun k k' => (iblk m c 3 t : Vec Ideal S512x3x3 .f32) (ix3 p k k')) = fun k k' => V m c main_arg3 (ix3 (rowOf t p) k k') :=
    funext fun k => funext fun k' => iblk3_apply m c t p k k'
  exact (congrArg (fun f => cap f _ _) e0).trans ((congrArg (fun f => cap _ f _) e2).trans (congrArg (fun f => cap _ _ f) e3))

/-- The sum over the 4096 points of the cross-entropy block sums is the total over the batch. -/
theorem sum_g1 (c : Dev nD) :
    ∑ i ∈ Finset.range 4096, g1 m c i = total1 (V m c main_v0) (V m c main_v1) := by
  rw [← Fin.sum_univ_eq_sum_range (fun i => g1 m c i) 4096]
  unfold total1
  rw [← Cert.BlockSums.sum_blocks_fin 4096 512 (by norm_num) (rowBce (V m c main_v0) (V m c main_v1))]
  refine Finset.sum_congr rfl fun n _ => ?_
  have hn : n.val < cfg0.N := lt_of_lt_of_eq n.isLt (show cfg0.N = 4096 from N_0).symm
  rw [g1_of_lt m c n.val hn, block_rows1]
  exact Finset.sum_congr rfl fun p _ => congrArg _ (Fin.ext rfl)

/-- The sum over the 4096 points of the capability block sums is the total over the batch. -/
theorem sum_g2 (c : Dev nD) :
    ∑ i ∈ Finset.range 4096, g2 m c i = total2 (V m c main_v0) (V m c main_arg2) (V m c main_arg3) := by
  rw [← Fin.sum_univ_eq_sum_range (fun i => g2 m c i) 4096]
  unfold total2
  rw [← Cert.BlockSums.sum_blocks_fin 4096 512 (by norm_num) (rowCap (V m c main_v0) (V m c main_arg2) (V m c main_arg3))]
  refine Finset.sum_congr rfl fun n _ => ?_
  have hn : n.val < cfg0.N := lt_of_lt_of_eq n.isLt (show cfg0.N = 4096 from N_0).symm
  rw [g2_of_lt m c n.val hn, block_rows2]
  exact Finset.sum_congr rfl fun p _ => congrArg _ (Fin.ext rfl)

/-! ## The two result arrays after the run -/

/-- The last point of the grid. -/
def tLast : Fin cfg0.N := ⟨4095, lt_of_lt_of_eq (by decide : 4095 < 4096) (show cfg0.N = 4096 from N_0).symm⟩

/-- Both result windows sit on block (0, 0) at every point, and the block is the whole 1x1 array. -/
theorem idx4 : ∀ t : Fin cfg0.N, win0_4.index t (0 : Fin 2) * win0_4.size 0 = 0 ∧ win0_4.index t (1 : Fin 2) * win0_4.size 1 = 0
    ∧ win0_4.xsize (grid0.coords t) 0 = 1 ∧ win0_4.xsize (grid0.coords t) 1 = 1 :=
  (by decide +kernel : ∀ t : Fin grid0.N, _)
theorem idx5 : ∀ t : Fin cfg0.N, win0_5.index t (0 : Fin 2) * win0_5.size 0 = 0 ∧ win0_5.index t (1 : Fin 2) * win0_5.size 1 = 0
    ∧ win0_5.xsize (grid0.coords t) 0 = 1 ∧ win0_5.xsize (grid0.coords t) 1 = 1 :=
  (by decide +kernel : ∀ t : Fin grid0.N, _)
/-- The same offsets against the arrays' own extents. -/
theorem off4 : ∀ t : Fin cfg0.N, win0_4.index t (0 : Fin 2) * main_v2_0.ty.shape.size 0 = 0
    ∧ win0_4.index t (1 : Fin 2) * main_v2_0.ty.shape.size 1 = 0 :=
  (by decide +kernel : ∀ t : Fin grid0.N, _)
theorem off5 : ∀ t : Fin cfg0.N, win0_5.index t (0 : Fin 2) * main_v2_1.ty.shape.size 0 = 0
    ∧ win0_5.index t (1 : Fin 2) * main_v2_1.ty.shape.size 1 = 0 :=
  (by decide +kernel : ∀ t : Fin grid0.N, _)

/-- The cross-entropy total over the batch, as the contents of the first result array. -/
abbrev res1 (c : Dev nD) : Buf (Elt Ideal) ((c : Thread nD τ).loc main_v2_0) :=
  fun _ => total1 (V m c main_v0) (V m c main_v1)

/-- The capability total over the batch, as the contents of the second result array. -/
abbrev res2 (c : Dev nD) : Buf (Elt Ideal) ((c : Thread nD τ).loc main_v2_1) :=
  fun _ => total2 (V m c main_v0) (V m c main_arg2) (V m c main_arg3)

/-- The one write-back of the first result array writes the total. -/
theorem flushed4 (c : Dev nD) (t : Fin cfg0.N) (hf : (cfg0.win 4).flush t = true) :
    (dats m 0 c).flushed 4 t = ((cfg0.win 4).blk t).view.read (Elt Ideal) (res1 m c) := by
  have hN : cfg0.N = 4096 := N_0
  have h3 : t.val = 4095 := by have := (flush0_4 t).mp hf; have := t.isLt; omega
  show (cfg0.win 4).cut (grid0.coords t) ((dats m 0 c).after 4 t) = _
  rw [after0_4, (outsAt_eq m c t.val t.isLt).1]
  have hz' : (fun a => win0_4.index t a * main_v2_0.ty.shape.size a) = fun _ => 0 := funext fun a => by
    obtain ⟨e0, e1⟩ := off4 t
    match a with
    | ⟨0, _⟩ => exact e0
    | ⟨1, _⟩ => exact e1
  refine Eq.trans ?_ (Memref.read_access_unit_zero (Elt Ideal) main_v2_0 hz' (fun a => by rw [congrFun hz' a]; simp) (res1 m c)).symm
  funext x
  show ∑ i ∈ Finset.range (t.val + 1), g1 m c i = total1 (V m c main_v0) (V m c main_v1)
  rw [h3]
  exact sum_g1 m c

theorem flushed5 (c : Dev nD) (t : Fin cfg0.N) (hf : (cfg0.win 5).flush t = true) :
    (dats m 0 c).flushed 5 t = ((cfg0.win 5).blk t).view.read (Elt Ideal) (res2 m c) := by
  have hN : cfg0.N = 4096 := N_0
  have h3 : t.val = 4095 := by have := (flush0_5 t).mp hf; have := t.isLt; omega
  show (cfg0.win 5).cut (grid0.coords t) ((dats m 0 c).after 5 t) = _
  rw [after0_5, (outsAt_eq m c t.val t.isLt).2]
  have hz' : (fun a => win0_5.index t a * main_v2_1.ty.shape.size a) = fun _ => 0 := funext fun a => by
    obtain ⟨e0, e1⟩ := off5 t
    match a with
    | ⟨0, _⟩ => exact e0
    | ⟨1, _⟩ => exact e1
  refine Eq.trans ?_ (Memref.read_access_unit_zero (Elt Ideal) main_v2_1 hz' (fun a => by rw [congrFun hz' a]; simp) (res2 m c)).symm
  funext x
  show ∑ i ∈ Finset.range (t.val + 1), g2 m c i = total2 (V m c main_v0) (V m c main_arg2) (V m c main_arg3)
  rw [h3]
  exact sum_g2 m c

/-- The first result array ends holding the cross-entropy total. -/
theorem final4 (c : Dev nD) : (dats m 0 c).arrAt 4 cfg0.N = res1 m c :=
  (dats m 0 c).arrAt_eq_of_cover 4 (res1 m c) (flushed4 m c) fun i =>
    ⟨tLast, (flush0_4 tLast).mpr rfl, by
      obtain ⟨e0, e1, s0, s1⟩ := idx4 tLast
      show i ∈ ((View.whole main_v2_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [e0, s0]; omega
      | ⟨1, _⟩ => show win0_4.index tLast 1 * win0_4.size 1 ≤ (i 1 : Nat) ∧ (i 1 : Nat) < win0_4.index tLast 1 * win0_4.size 1 + win0_4.xsize (grid0.coords tLast) 1
                  rw [e1, s1]; omega⟩

/-- The second result array ends holding the capability total. -/
theorem final5 (c : Dev nD) : (dats m 0 c).arrAt 5 cfg0.N = res2 m c :=
  (dats m 0 c).arrAt_eq_of_cover 5 (res2 m c) (flushed5 m c) fun i =>
    ⟨tLast, (flush0_5 tLast).mpr rfl, by
      obtain ⟨e0, e1, s0, s1⟩ := idx5 tLast
      show i ∈ ((View.whole main_v2_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [e0, s0]; omega
      | ⟨1, _⟩ => show win0_5.index tLast 1 * win0_5.size 1 ≤ (i 1 : Nat) ∧ (i 1 : Nat) < win0_5.index tLast 1 * win0_5.size 1 + win0_5.xsize (grid0.coords tLast) 1
                  rw [e1, s1]; omega⟩

/-! ## The run -/

/-- Every weakly fair execution of the kernel program terminates with the four results at the loss of the two totals
    of the arrays the launch found, and the four arguments unchanged. -/
theorem run : θ_run defs (onTc (τ := τ) (main (F := Ideal))) ⟨m, fun _ => 0, ρ⟩ fun r => ∀ c : Dev nD,
      r.2.mem ((c.tc : Thread nD τ).loc main_v10)
          = totalLoss (fun _ => total1 (V m c main_v0) (V m c main_v1)) (fun _ => total2 (V m c main_v0) (V m c main_arg2) (V m c main_arg3))
      ∧ r.2.mem ((c.tc : Thread nD τ).loc main_v4) = baseLoss (fun _ => total1 (V m c main_v0) (V m c main_v1))
      ∧ r.2.mem ((c.tc : Thread nD τ).loc main_v6) = capLoss (fun _ => total2 (V m c main_v0) (V m c main_arg2) (V m c main_arg3))
      ∧ r.2.mem ((c.tc : Thread nD τ).loc main_cst_4) = constant (F := Ideal) S0 .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_v10 m c _ _ (final4 m c) (final5 m c)),
      ((h c).2 main_v4 (Pipeline.mem_restRefs_of main_v4 (by decide) (by decide))).trans (tail_v4 m c _ (final4 m c)),
      ((h c).2 main_v6 (Pipeline.mem_restRefs_of main_v6 (by decide) (by decide))).trans (tail_v6 m c _ (final5 m c)),
      ((h c).2 main_cst_4 (Pipeline.mem_restRefs_of main_cst_4 (by decide) (by decide))).trans (tail_cst_4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Final

end
-- ==== Proof.LibSumIdx3.lean ====
/-
  A sum over a rank-3 index set, by coordinates.

  An index of the shape [n0, n1, n2] is a triple of coordinates, one below each extent, so the index set is in
  bijection with the product Fin n0 × Fin n1 × Fin n2 and a sum over it is the triple sum over the coordinates,
  the outermost coordinate first.  This is the rank-3 companion of the rank-2 statement
  (`ValueIdx.idxEquiv2`, `ValueIdx.sum_idx2`) and is proved the same way.
-/
import Idealize.ShloMosaic.Lib.ValueIdx

noncomputable section

open scoped BigOperators

namespace Idealize.ShloMosaic.ValueIdx3

open Idealize.ShloMosaic Idealize.ShloMosaic.ValueIdx

/-- A rank-3 index set is the product of its three coordinate ranges: an index goes to its coordinates, and a
    triple of coordinates to the index `ix3` builds from them … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in the order of the axes. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx3

end
-- ==== Proof.RefTotals.lean ====
/-
  The reference's two big sums are the two totals of the loss.

  The reference adds up, over the flat array of 2097152 rows by 24 entries, the cross-entropy entry of every logit
  and target; and, over the 2097152 rows by 8 tasks, the capability term of every task, reading the logits through
  the view of the same array as rows by tasks by robots.

  First sum.  Entry by entry the summand is the reference's spelling of softplus of the logit minus logit times
  target, which is the cross-entropy entry.  The flat array and its rows-by-tasks-by-robots view hold the same
  elements in the same row-major order, so the index sets are in bijection and the sum over one is the sum over
  the other; a sum over triples of coordinates is the triple sum.  The sum starts from zero, and 0 + s = s.

  Second sum.  A sum over pairs of coordinates is the double sum.  At row b and task t the summand is a choice,
  on whether the task's three logits sum to a positive number, between the sum over the three columns c of
  max (R(b,t,c) - sum over the robots k of assigned(P(b,t,k)) * Q(b,k,c)) 0 and zero: the task's capability term.
  Every inner sum starts from zero as well.

  Nothing here needs the entries to be finite: only 0 + s = s and the re-indexing of finite sums in the extended
  reals, which form a commutative additive monoid.
-/
import proofs.«134858_j76716705841545_2_alg».proof.Proof.Totals
import proofs.«134858_j76716705841545_2_alg».proof.Proof.LibSumIdx3
import proofs.«134858_j76716705841545_2_alg».proof.Proof.Gen.ReferenceIdeal.Read
noncomputable section
open scoped BigOperators
namespace Cert.ReferenceIdeal.RefValue
open Cert.ReferenceIdeal Cert.ReferenceIdeal.Gen Cert.ReferenceIdeal.Read Idealize.ShloMosaic Idealize.ShloMosaic.ValueIdx Cert.Loss

/-- the logits (or targets) viewed as rows by tasks by robots -/
abbrev view3 (x : (⟨S2097152x24, .f32⟩ : BufTy).Contents (Elt Ideal)) : SB83.Idx → EReal :=
  shapeCast S2097152x8x3 x shapeCasts_S2097152x24_S2097152x8x3

/-! ## The first sum: the cross-entropy over the batch -/

/-- One entry of the first sum's operand: softplus of the logit, in the reference's spelling (zero subtracted, a
    guard against a value differing from itself, the absolute value negated), minus logit times target. -/
theorem v2_entry (x0 x1 : (⟨S2097152x24, .f32⟩ : BufTy).Contents (Elt Ideal)) (j : S2097152x24.Idx) :
    val_main_v2 (F := Ideal) x0 x1 j = bce (x0 j) (x1 j) := by
  show Scalar.select (Ideal.cmp .une (x0 j - Ideal.ofBits .f32 0x00000000#32) (x0 j - Ideal.ofBits .f32 0x00000000#32))
        (x0 j + Ideal.ofBits .f32 0x00000000#32)
        (max (x0 j) (Ideal.ofBits .f32 0x00000000#32)
          + Ideal.log1p (Ideal.exp (-(max (x0 j - Ideal.ofBits .f32 0x00000000#32) (-(x0 j - Ideal.ofBits .f32 0x00000000#32))))))
      - x0 j * x1 j = _
  rw [softplus_host]
  rfl

/-- The first sum is the first total: 0 + s = s; each entry is the cross-entropy entry; the flat index set and the
    rows-by-tasks-by-robots one correspond by row-major position, so the sum moves across that bijection unchanged;
    and the sum over triples of coordinates is the triple sum. -/
theorem sum1_eq (x0 x1 : (⟨S2097152x24, .f32⟩ : BufTy).Contents (Elt Ideal)) (i : S_.Idx) :
    val_main_v3 (F := Ideal) x0 x1 i = total1 (view3 x0) (view3 x1) := by
  rw [val_main_v3_apply, val_main_cst_apply, Ideal.ofBits_def, Ideal.ofBits_zero_f32, zero_add]
  rw [Finset.sum_congr rfl fun j _ => v2_entry x0 x1 j]
  unfold total1 rowBce
  rw [← ValueIdx3.sum_idx3 (fun i => bce (view3 x0 i) (view3 x1 i))]
  exact (Equiv.sum_comp (Shape.reshapeEquiv shapeCasts_S2097152x24_S2097152x8x3) (fun j => bce (x0 j) (x1 j))).symm

/-! ## The second sum: the capability violation over the batch -/

/-- Row b, task t, with the summed robot k put last, is the index (b, t, k). -/
theorem idx14_ix (b : Fin 2097152) (t : Fin 8) (k : Fin 3) : idx_main_v14 (ix2 b t) k = ix3 b t k :=
  funext fun a => Fin.ext (by match a with | ⟨0, _⟩ => rfl | ⟨1, _⟩ => rfl | ⟨2, _⟩ => rfl)

/-- Row b, task t, with the summed column c put last, is the index (b, t, c). -/
theorem idx13_ix (b : Fin 2097152) (t : Fin 8) (c : Fin 3) : idx_main_v13 (ix2 b t) c = ix3 b t c :=
  funext fun a => Fin.ext (by match a with | ⟨0, _⟩ => rfl | ⟨1, _⟩ => rfl | ⟨2, _⟩ => rfl)

/-- The capability sum at (b, t, c) reads the indicator at (b, t, k) … -/
theorem lidx_ix (b : Fin 2097152) (t : Fin 8) (c k : Fin 3) : lidx_main_v9 (ix3 b t c) k = ix3 b t k :=
  funext fun a => Fin.ext (by match a with | ⟨0, _⟩ => rfl | ⟨1, _⟩ => rfl | ⟨2, _⟩ => rfl)

/-- … and the capability matrix at (b, k, c). -/
theorem ridx_ix (b : Fin 2097152) (t : Fin 8) (c k : Fin 3) : ridx_main_v9 (ix3 b t c) k = ix3 b k c :=
  funext fun a => Fin.ext (by match a with | ⟨0, _⟩ => rfl | ⟨1, _⟩ => rfl | ⟨2, _⟩ => rfl)

/-- A task's logit sum: zero plus the sum over its three robots. -/
theorem v14_entry (x0 : (⟨S2097152x24, .f32⟩ : BufTy).Contents (Elt Ideal)) (b : Fin 2097152) (t : Fin 8) :
    val_main_v14 (F := Ideal) x0 (ix2 b t) = ∑ k : Fin 3, view3 x0 (ix3 b t k) := by
  rw [val_main_v14_apply, val_main_cst_4_apply, Ideal.ofBits_def, Ideal.ofBits_zero_f32, zero_add]
  refine Finset.sum_congr rfl fun k _ => ?_
  rw [idx14_ix]
  rfl

/-- The indicator of a logit above one half, converted from the comparison's bit. -/
theorem v8_entry (x0 : (⟨S2097152x24, .f32⟩ : BufTy).Contents (Elt Ideal)) (j : S2097152x8x3.Idx) :
    val_main_v8 (F := Ideal) x0 j = assigned (view3 x0 j) := rfl

/-- What column c of task t still lacks: the requirement minus the assigned robots' capability, or zero. -/
theorem v12_entry (x0 : (⟨S2097152x24, .f32⟩ : BufTy).Contents (Elt Ideal)) (x2 : (⟨S2097152x8x3, .f32⟩ : BufTy).Contents (Elt Ideal)) (x3 : (⟨S2097152x3x3, .f32⟩ : BufTy).Contents (Elt Ideal))
    (b : Fin 2097152) (t : Fin 8) (c : Fin 3) :
    val_main_v12 (F := Ideal) x0 x2 x3 (ix3 b t c)
      = max (x2 (ix3 b t c) - ∑ k : Fin 3, assigned (view3 x0 (ix3 b t k)) * x3 (ix3 b k c)) 0 := by
  rw [val_main_v12_apply, val_main_v10_apply, val_main_v9_apply, val_main_v11_apply, val_main_cst_2_apply]
  show max (x2 (ix3 b t c) - ∑ k : Fin 3, val_main_v8 (F := Ideal) x0 (lidx_main_v9 (ix3 b t c) k) * x3 (ridx_main_v9 (ix3 b t c) k))
      (Ideal.ofBits .f32 0x00000000#32) = _
  rw [Ideal.ofBits_zero_f32]
  refine congrArg (fun s => max (x2 (ix3 b t c) - s) 0) (Finset.sum_congr rfl fun k _ => ?_)
  rw [lidx_ix, ridx_ix, v8_entry]

/-- A task's shortage: zero plus the sum over the three columns. -/
theorem v13_entry (x0 : (⟨S2097152x24, .f32⟩ : BufTy).Contents (Elt Ideal)) (x2 : (⟨S2097152x8x3, .f32⟩ : BufTy).Contents (Elt Ideal)) (x3 : (⟨S2097152x3x3, .f32⟩ : BufTy).Contents (Elt Ideal))
    (b : Fin 2097152) (t : Fin 8) :
    val_main_v13 (F := Ideal) x0 x2 x3 (ix2 b t)
      = shortage (fun k => view3 x0 (ix3 b t k)) (fun c => x2 (ix3 b t c)) (fun k c => x3 (ix3 b k c)) := by
  rw [val_main_v13_apply, val_main_cst_3_apply, Ideal.ofBits_def, Ideal.ofBits_zero_f32, zero_add]
  unfold shortage
  refine Finset.sum_congr rfl fun c _ => ?_
  rw [idx13_ix, v12_entry]

/-- A task's term: its shortage when its logits sum to a positive number, else zero. -/
theorem v17_entry (x0 : (⟨S2097152x24, .f32⟩ : BufTy).Contents (Elt Ideal)) (x2 : (⟨S2097152x8x3, .f32⟩ : BufTy).Contents (Elt Ideal)) (x3 : (⟨S2097152x3x3, .f32⟩ : BufTy).Contents (Elt Ideal))
    (b : Fin 2097152) (t : Fin 8) :
    val_main_v17 (F := Ideal) x0 x2 x3 (ix2 b t)
      = cap (fun k => view3 x0 (ix3 b t k)) (fun c => x2 (ix3 b t c)) (fun k c => x3 (ix3 b k c)) := by
  rw [val_main_v17_apply, val_main_v16_apply, v14_entry, v13_entry, val_main_v15_apply, val_main_cst_5_apply,
    val_main_call1_v1_apply, val_main_call1_v0_apply, val_main_cst_6_apply]
  rw [Ideal.cmpf_def, Ideal.ofBits_def, Ideal.ofBits_zero_f32]
  rfl

/-- The second sum is the second total: 0 + s = s, the sum over pairs of coordinates is the double sum, and each
    entry is the task's capability term. -/
theorem sum2_eq (x0 : (⟨S2097152x24, .f32⟩ : BufTy).Contents (Elt Ideal)) (x2 : (⟨S2097152x8x3, .f32⟩ : BufTy).Contents (Elt Ideal)) (x3 : (⟨S2097152x3x3, .f32⟩ : BufTy).Contents (Elt Ideal)) (i : S_.Idx) :
    val_main_v18 (F := Ideal) x0 x2 x3 i = total2 (view3 x0) x2 x3 := by
  rw [val_main_v18_apply, val_main_cst_7_apply, Ideal.ofBits_def, Ideal.ofBits_zero_f32, zero_add,
    sum_idx2 (fun j => val_main_v17 (F := Ideal) x0 x2 x3 j)]
  unfold total2 rowCap
  exact Finset.sum_congr rfl fun b _ => Finset.sum_congr rfl fun t _ => v17_entry x0 x2 x3 b t

end Cert.ReferenceIdeal.RefValue
end
-- ==== Proof.RefResults.lean ====
/-
  The reference's three computed results as the loss of the two totals.

  The reference divides its first sum by the number of logits, its second by the batch size, and combines them with
  the weights 0.1 exactly as the kernel program's host operations do; its two sums are the two totals.
-/
import proofs.«134858_j76716705841545_2_alg».proof.Proof.RefTotals
import proofs.«134858_j76716705841545_2_alg».proof.Proof.Tail

noncomputable section

namespace Cert.ReferenceIdeal.RefValue

open Cert.ReferenceIdeal Cert.ReferenceIdeal.Gen Cert.ReferenceIdeal.Read Idealize.ShloMosaic Idealize.ShloMosaic.ValueIdx Cert.Loss

variable (x0 x1 : (⟨S2097152x24, .f32⟩ : BufTy).Contents (Elt Ideal))
  (x2 : (⟨S2097152x8x3, .f32⟩ : BufTy).Contents (Elt Ideal)) (x3 : (⟨S2097152x3x3, .f32⟩ : BufTy).Contents (Elt Ideal))

theorem sum1_fun : val_main_v3 (F := Ideal) x0 x1 = fun _ => total1 (view3 x0) (view3 x1) :=
  funext (sum1_eq x0 x1)

theorem sum2_fun : val_main_v18 (F := Ideal) x0 x2 x3 = fun _ => total2 (view3 x0) x2 x3 :=
  funext (sum2_eq x0 x2 x3)

/-- The mean cross-entropy. -/
theorem ref_v4 : val_main_v4 (F := Ideal) x0 x1 = baseLoss (fun _ => total1 (view3 x0) (view3 x1)) := by
  show baseLoss (val_main_v3 (F := Ideal) x0 x1) = _
  rw [sum1_fun]

/-- The mean capability violation. -/
theorem ref_v19 : val_main_v19 (F := Ideal) x0 x2 x3 = capLoss (fun _ => total2 (view3 x0) x2 x3) := by
  show capLoss (val_main_v18 (F := Ideal) x0 x2 x3) = _
  rw [sum2_fun]

/-- The total loss. -/
theorem ref_v23 : val_main_v23 (F := Ideal) x0 x1 x2 x3
    = totalLoss (fun _ => total1 (view3 x0) (view3 x1)) (fun _ => total2 (view3 x0) x2 x3) := by
  show totalLoss (val_main_v3 (F := Ideal) x0 x1) (val_main_v18 (F := Ideal) x0 x2 x3) = _
  rw [sum1_fun, sum2_fun]

end Cert.ReferenceIdeal.RefValue

end
-- ==== Proof.lean ====
/-
  The claim: the kernel program and the reference compute the same four results on the extended reals.

  The kernel streams the batch of 2097152 rows through 4096 blocks of 512 rows and keeps two running sums: the
  binary cross-entropy with logits of every logit against its target, and, for every row and task, the capability
  the task still lacks (counted when the task's logits sum to a positive number).  After the last block the host
  divides the first sum by the number of logits and the second by the batch size and combines them,
  loss = base + 0.1 * violation + 0.1 * 0.  The reference computes the two sums over the whole arrays at once and
  combines them in the same way with the same constants.

  On the extended reals addition is commutative and associative, so the grouping of a sum into rows, tasks, robots
  and blocks does not matter; each entry is the same function of the same array entries on both sides (the two
  spellings of softplus, of the assignment indicator and of the robots' capability sum are brought to one form
  entry by entry).  No step needs the inputs to be finite.

  The three frames are the generated ones (the reference's is its generated run with the results dropped); the ideal
  pass rewrote nothing, so the kernel's idealization is its own text.
-/
import proofs.«134858_j76716705841545_2_alg».proof.Defs
import proofs.«134858_j76716705841545_2_alg».proof.Proof.Gen.Kernel
import proofs.«134858_j76716705841545_2_alg».proof.Proof.Gen.Kernel.Skeleton
import proofs.«134858_j76716705841545_2_alg».proof.Proof.Gen.Kernel.Launch
import proofs.«134858_j76716705841545_2_alg».proof.Proof.Gen.Kernel.Points
import proofs.«134858_j76716705841545_2_alg».proof.Proof.Gen.Kernel.Frame
import proofs.«134858_j76716705841545_2_alg».proof.Proof.Gen.KernelIdeal
import proofs.«134858_j76716705841545_2_alg».proof.Proof.Gen.KernelIdeal.Skeleton
import proofs.«134858_j76716705841545_2_alg».proof.Proof.Gen.KernelIdeal.Launch
import proofs.«134858_j76716705841545_2_alg».proof.Proof.Gen.KernelIdeal.Points
import proofs.«134858_j76716705841545_2_alg».proof.Proof.Gen.KernelIdeal.Frame
import proofs.«134858_j76716705841545_2_alg».proof.Proof.Gen.ReferenceIdeal
import proofs.«134858_j76716705841545_2_alg».proof.Proof.Gen.Pre_finite_inputs
import proofs.«134858_j76716705841545_2_alg».proof.Proof.Gen.ReferenceIdeal.Run
import proofs.«134858_j76716705841545_2_alg».proof.Proof.Gen.ReferenceIdeal.Read
import proofs.«134858_j76716705841545_2_alg».proof.Proof.KernelFinal
import proofs.«134858_j76716705841545_2_alg».proof.Proof.RefResults
import Idealize.ShloMosaic.Adequacy
import Idealize.ShloMosaic.Init

noncomputable section

namespace Cert.Proof

open Idealize.ShloMosaic Idealize.SL.Sem Cert.Kernel

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the results dropped. -/
theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2.2.2.2) (Cert.ReferenceIdeal.Value.run (F := Ideal) m ρ)

theorem preserves : Cert.preserves_Kernel_KernelIdeal := trivial

/-- Both programs end at the loss of the two totals of arrays that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Final.run m ρ, ?_⟩
  refine (θ_run Cert.ReferenceIdeal.defs _ _).mono (fun _ h c => ?_) (Cert.ReferenceIdeal.Value.run (F := Ideal) m' ρ')
  obtain ⟨h23, h4, h19, h12, ha0, ha1, ha2, ha3⟩ := h c
  obtain ⟨e0, e1, e2, e3⟩ := hagree c
  have p0 := Cert.KernelIdeal.Blocks.V_main_v0 m c
  have p1 := Cert.KernelIdeal.Blocks.V_main_v1 m c
  have p2 := Cert.KernelIdeal.Gen.V_main_arg2 m c
  have p3 := Cert.KernelIdeal.Gen.V_main_arg3 m c
  refine ⟨h23.trans ?_, h4.trans ?_, h19.trans ?_, h12, ha0, ha1, ha2, ha3⟩
  · rw [Cert.ReferenceIdeal.Read.val_main_v23_eq, Cert.ReferenceIdeal.RefValue.ref_v23, e0, e1, e2, e3, p0, p1, p2, p3]
  · rw [Cert.ReferenceIdeal.Read.val_main_v4_eq, Cert.ReferenceIdeal.RefValue.ref_v4, e0, e1, p0, p1]
  · rw [Cert.ReferenceIdeal.Read.val_main_v19_eq, Cert.ReferenceIdeal.RefValue.ref_v19, e0, e2, e3, p0, p2, p3]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
